-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x128 : Shape := ⟨4, ![32, 128, 128, 128]⟩
abbrev S32x128 : Shape := ⟨2, ![32, 128]⟩
abbrev S32 : Shape := ⟨1, ![32]⟩
abbrev S_ : Shape := ⟨0, ![]⟩

class Facts : Prop where
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x128x128 .f32) (main_arg1 : FVec F S32x128 .f32) (main_arg2 : FVec F S32 .f32) : IVec S_ 1 :=
  let main_v0 : FVec F S32x128x128x128 .f32 := Host.absf main_arg0
  let main_cst : FVec F S_ .f32 := constant S_ .f32 0x7F800000#32
  let main_v1 : FVec F S32x128x128x128 .f32 := broadcastInDim S32x128x128x128 ![] bcast_S_S32x128x128x128 main_cst
  let main_v2 : IVec S32x128x128x128 1 := cmpf .olt main_v0 main_v1
  let main_c : IVec S_ 1 := constantI S_ 1 1#1
  let main_v3 : IVec S_ 1 := (fun x v => Host.reduce IntOp.andi x v reducesTo_S32x128x128x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x128x128x128 : Shape := ⟨4, ![32, 128, 128, 128]⟩
abbrev S32x128 : Shape := ⟨2, ![32, 128]⟩
abbrev S32 : Shape := ⟨1, ![32]⟩
abbrev S32x128x16384 : Shape := ⟨3, ![32, 128, 16384]⟩
abbrev S_ : Shape := ⟨0, ![]⟩
abbrev S32x1 : Shape := ⟨2, ![32, 1]⟩
abbrev S128x32 : Shape := ⟨2, ![128, 32]⟩
abbrev S32x32x128 : Shape := ⟨3, ![32, 32, 128]⟩
abbrev S2x128x16384 : Shape := ⟨3, ![2, 128, 16384]⟩
abbrev S2x32x128 : Shape := ⟨3, ![2, 32, 128]⟩
abbrev S1x128x16384 : Shape := ⟨3, ![1, 128, 16384]⟩
abbrev S128x16384 : Shape := ⟨2, ![128, 16384]⟩
abbrev S32x16384 : Shape := ⟨2, ![32, 16384]⟩
abbrev S16384 : Shape := ⟨1, ![16384]⟩
abbrev S1x16384 : Shape := ⟨2, ![1, 16384]⟩
abbrev S1x32x128 : Shape := ⟨3, ![1, 32, 128]⟩

abbrev nBuf : Space → Nat
  | .hbm => 19
  | .vmem => 8
  | .smem => 0
  | _ => 0

abbrev bufTy : (tb : Table) → Fin (tcTables nBuf tb) → BufTy
  | .hbm, ⟨0, _⟩ => ⟨S32x128x128x128, .f32⟩
  | .hbm, ⟨1, _⟩ => ⟨S32x128, .f32⟩
  | .hbm, ⟨2, _⟩ => ⟨S32, .f32⟩
  | .hbm, ⟨3, _⟩ => ⟨S32x128x16384, .f32⟩
  | .hbm, ⟨4, _⟩ => ⟨S32x128, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x128, .f32⟩
  | .hbm, ⟨15, _⟩ => ⟨S32x128, .f32⟩
  | .hbm, ⟨16, _⟩ => ⟨S128x32, .f32⟩
  | .hbm, ⟨17, _⟩ => ⟨S128x32, .bf16⟩
  | .hbm, ⟨18, _⟩ => ⟨S32x32x128, .f32⟩
  | .local _ .vmem, ⟨0, _⟩ => ⟨S2x128x16384, .f32⟩
  | .local _ .vmem, ⟨1, _⟩ => ⟨S2x128x16384, .f32⟩
  | .local _ .vmem, ⟨2, _⟩ => ⟨S128x32, .bf16⟩
  | .local _ .vmem, ⟨3, _⟩ => ⟨S32x128, .f32⟩
  | .local _ .vmem, ⟨4, _⟩ => ⟨S32x1, .f32⟩
  | .local _ .vmem, ⟨5, _⟩ => ⟨S32x1, .f32⟩
  | .local _ .vmem, ⟨6, _⟩ => ⟨S2x32x128, .f32⟩
  | .local _ .vmem, ⟨7, _⟩ => ⟨S2x32x128, .f32⟩
  | _, _ => ⟨S32x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x128x128x128_S32x128x16384 : S32x128x128x128.ShapeCasts S32x128x16384
  reducesTo_S32x128_S32_d1 : S32x128.ReducesTo [1] S32
  h_S_ : 0 < S_.numel
  shapeCasts_S32_S32x1 : S32.ShapeCasts S32x1
  bcast_S32_S32x1_0 : S32.BroadcastsInDim S32x1 (![0] : Fin 1 → Fin S32x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  transposes_S32x128_S128x32_1_0 : S32x128.Transposes [1, 0] S128x32
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S2x128x16384_S1x128x16384_0_0_0 : ∀ a, (![0, 0, 0] : Fin 3 → Nat) a + S1x128x16384.size a ≤ S2x128x16384.size a
  h_S1x128x16384 : 0 < S1x128x16384.numel
  shapeCasts_S1x128x16384_S128x16384 : S1x128x16384.ShapeCasts S128x16384
  reduces_S128x16384_S16384 : S128x16384.Reduces [0] S16384
  shapeCasts_S16384_S1x16384 : S16384.ShapeCasts S1x16384
  broadcasts_S32x1_S32x16384 : S32x1.Broadcasts S32x16384
  broadcasts_S1x16384_S32x16384 : S1x16384.Broadcasts S32x16384
  reduces_S32x16384_S16384 : S32x16384.Reduces [0] S16384
  reduces_S32x16384_S32 : S32x16384.Reduces [1] S32
  broadcasts_S32x1_S32x128 : S32x1.Broadcasts S32x128
  inb_S2x32x128_S1x32x128_0_0_0 : ∀ a, (![0, 0, 0] : Fin 3 → Nat) a + S1x32x128.size a ≤ S2x32x128.size a
  h_S1x32x128 : 0 < S1x32x128.numel
  shapeCasts_S1x32x128_S32x128 : S1x32x128.ShapeCasts S32x128
  shapeCasts_S32x128_S1x32x128 : S32x128.ShapeCasts S1x32x128
  inb_S2x128x16384_S1x128x16384_1_0_0 : ∀ a, (![1, 0, 0] : Fin 3 → Nat) a + S1x128x16384.size a ≤ S2x128x16384.size a
  inb_S2x32x128_S1x32x128_1_0_0 : ∀ a, (![1, 0, 0] : Fin 3 → Nat) a + S1x32x128.size a ≤ S2x32x128.size a
  dot_S128x32_S128x16384_S32x16384_0_0_1_1_n_n_wf : DotDims.WF S128x32 S128x16384 S32x16384 [0] [0] [1] [1] [] []
  dot_S32x16384_S128x16384_S32x128_1_1_0_0_n_n_wf : DotDims.WF S32x16384 S128x16384 S32x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x16384.size a ≤ S32x128x16384.size a
  hwx0_0 : ∀ i : grid0.Coords, EltTy.bits .f32 = 32 ∨ (Rect.block (s := S32x128x16384) S2x128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .bf16 = 32 ∨ (Rect.block (s := S128x32) S128x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x32x128.size a ≤ S32x32x128.size a
  hwx0_5 : ∀ i : grid0.Coords, EltTy.bits .f32 = 32 ∨ (Rect.block (s := S32x32x128) S2x32x128.size (cc0_transform_5 i) (hinb0_5 i)).WholeWords (EltTy.packing .f32)

variable [Facts₀]

def dot_S128x32_S128x16384_S32x16384_0_0_1_1_n_n : DotDims S128x32 S128x16384 S32x16384 where
  lhsContracting := [0]
  rhsContracting := [0]
  lhsNonContracting := [1]
  rhsNonContracting := [1]
  lhsBatch := []
  rhsBatch := []
  wf := dot_S128x32_S128x16384_S32x16384_0_0_1_1_n_n_wf
def dot_S32x16384_S128x16384_S32x128_1_1_0_0_n_n : DotDims S32x16384 S128x16384 S32x128 where
  lhsContracting := [1]
  rhsContracting := [1]
  lhsNonContracting := [0]
  rhsNonContracting := [0]
  lhsBatch := []
  rhsBatch := []
  wf := dot_S32x16384_S128x16384_S32x128_1_1_0_0_n_n_wf

abbrev win0_0 : Pipeline.Window sig grid0 :=
  Pipeline.Window.ofSpec (Memref.whole main_v0) S2x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S2x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x128x128x128 : Shape := ⟨4, ![32, 128, 128, 128]⟩
abbrev S32x128 : Shape := ⟨2, ![32, 128]⟩
abbrev S32 : Shape := ⟨1, ![32]⟩
abbrev S32x128x16384 : Shape := ⟨3, ![32, 128, 16384]⟩
abbrev S32x16384x128 : Shape := ⟨3, ![32, 16384, 128]⟩
abbrev S_ : Shape := ⟨0, ![]⟩
abbrev S32x16384 : Shape := ⟨2, ![32, 16384]⟩
abbrev S32x16384x1 : Shape := ⟨3, ![32, 16384, 1]⟩
abbrev S32x16384x32 : Shape := ⟨3, ![32, 16384, 32]⟩
abbrev S1x1x32 : Shape := ⟨3, ![1, 1, 32]⟩
abbrev S32x32x128 : Shape := ⟨3, ![32, 32, 128]⟩
abbrev S32x32 : Shape := ⟨2, ![32, 32]⟩
abbrev S32x32x1 : Shape := ⟨3, ![32, 32, 1]⟩
abbrev S1x32x128 : Shape := ⟨3, ![1, 32, 128]⟩

abbrev nBuf : Space → Nat
  | .hbm => 47
  | .vmem => 0
  | .smem => 0
  | _ => 0

abbrev bufTy : (tb : Table) → Fin (tcTables nBuf tb) → BufTy
  | .hbm, ⟨0, _⟩ => ⟨S32x128x128x128, .f32⟩
  | .hbm, ⟨1, _⟩ => ⟨S32x128, .f32⟩
  | .hbm, ⟨2, _⟩ => ⟨S32, .f32⟩
  | .hbm, ⟨3, _⟩ => ⟨S32x128x16384, .f32⟩
  | .hbm, ⟨4, _⟩ => ⟨S32x16384x128, .f32⟩
  | .hbm, ⟨5, _⟩ => ⟨S32x16384x128, .f32⟩
  | .hbm, ⟨6, _⟩ => ⟨S_, .f32⟩
  | .hbm, ⟨7, _⟩ => ⟨S32x16384, .f32⟩
  | .hbm, ⟨8, _⟩ => ⟨S32x16384x1, .f32⟩
  | .hbm, ⟨9, _⟩ => ⟨S32x128, .f32⟩
  | .hbm, ⟨10, _⟩ => ⟨S_, .f32⟩
  | .hbm, ⟨11, _⟩ => ⟨S32, .f32⟩
  | .hbm, ⟨12, _⟩ => ⟨S32x16384x32, .f32⟩
  | .hbm, ⟨13, _⟩ => ⟨S_, .f32⟩
  | .hbm, ⟨14, _⟩ => ⟨S32x16384x32, .f32⟩
  | .hbm, ⟨15, _⟩ => ⟨S32x16384x32, .f32⟩
  | .hbm, ⟨16, _⟩ => ⟨S32x16384x32, .f32⟩
  | .hbm, ⟨17, _⟩ => ⟨S32x16384x32, .f32⟩
  | .hbm, ⟨18, _⟩ => ⟨S1x1x32, .f32⟩
  | .hbm, ⟨19, _⟩ => ⟨S32x16384x32, .f32⟩
  | .hbm, ⟨20, _⟩ => ⟨S32x16384x32, .f32⟩
  | .hbm, ⟨21, _⟩ => ⟨S1x1x32, .f32⟩
  | .hbm, ⟨22, _⟩ => ⟨S32x16384x32, .f32⟩
  | .hbm, ⟨23, _⟩ => ⟨S32x16384x32, .f32⟩
  | .hbm, ⟨24, _⟩ => ⟨S_, .f32⟩
  | .hbm, ⟨25, _⟩ => ⟨S32x16384, .f32⟩
  | .hbm, ⟨26, _⟩ => ⟨S_, .f32⟩
  | .hbm, ⟨27, _⟩ => ⟨S32x16384, .f32⟩
  | .hbm, ⟨28, _⟩ => ⟨S32x16384, .f32⟩
  | .hbm, ⟨29, _⟩ => ⟨S32x16384x1, .f32⟩
  | .hbm, ⟨30, _⟩ => ⟨S32x16384x32, .f32⟩
  | .hbm, ⟨31, _⟩ => ⟨S32x16384x32, .f32⟩
  | .hbm, ⟨32, _⟩ => ⟨S32x16384x32, .f32⟩
  | .hbm, ⟨33, _⟩ => ⟨S_, .f32⟩
  | .hbm, ⟨34, _⟩ => ⟨S32x16384, .f32⟩
  | .hbm, ⟨35, _⟩ => ⟨S32x16384x1, .f32⟩
  | .hbm, ⟨36, _⟩ => ⟨S32x16384x32, .f32⟩
  | .hbm, ⟨37, _⟩ => ⟨S32x16384x32, .f32⟩
  | .hbm, ⟨38, _⟩ => ⟨S32x32x128, .f32⟩
  | .hbm, ⟨39, _⟩ => ⟨S_, .f32⟩
  | .hbm, ⟨40, _⟩ => ⟨S32x32, .f32⟩
  | .hbm, ⟨41, _⟩ => ⟨S32x32x1, .f32⟩
  | .hbm, ⟨42, _⟩ => ⟨S1x32x128, .f32⟩
  | .hbm, ⟨43, _⟩ => ⟨S32x32x128, .f32⟩
  | .hbm, ⟨44, _⟩ => ⟨S32x32x128, .f32⟩
  | .hbm, ⟨45, _⟩ => ⟨S32x32x128, .f32⟩
  | .hbm, ⟨46, _⟩ => ⟨S32x32x128, .f32⟩
  | _, _ => ⟨S32x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S32x128x128x128_S32x128x16384 : S32x128x128x128.ShapeCasts S32x128x16384
  transposes_S32x128x16384_S32x16384x128_0_2_1 : S32x128x16384.Transposes [0, 2, 1] S32x16384x128
  reducesTo_S32x16384x128_S32x16384_d2 : S32x16384x128.ReducesTo [2] S32x16384
  h_S_ : 0 < S_.numel
  bcast_S32x16384_S32x16384x1_0_1 : S32x16384.BroadcastsInDim S32x16384x1 (![0, 1] : Fin 2 → Fin S32x16384x1.rank)
  reducesTo_S32x128_S32_d1 : S32x128.ReducesTo [1] S32
  bcast_S_S32x16384x32 : S_.BroadcastsInDim S32x16384x32 (![] : Fin 0 → Fin S32x16384x32.rank)
  bcast_S32x16384x1_S32x16384x32_0_1_2 : S32x16384x1.BroadcastsInDim S32x16384x32 (![0, 1, 2] : Fin 3 → Fin S32x16384x32.rank)
  bcast_S32_S1x1x32_2 : S32.BroadcastsInDim S1x1x32 (![2] : Fin 1 → Fin S1x1x32.rank)
  bcast_S1x1x32_S32x16384x32_0_1_2 : S1x1x32.BroadcastsInDim S32x16384x32 (![0, 1, 2] : Fin 3 → Fin S32x16384x32.rank)
  reducesTo_S32x16384x32_S32x16384_d2 : S32x16384x32.ReducesTo [2] S32x16384
  bcast_S_S32x16384 : S_.BroadcastsInDim S32x16384 (![] : Fin 0 → Fin S32x16384.rank)
  reducesTo_S32x16384x32_S32x32_d1 : S32x16384x32.ReducesTo [1] S32x32
  bcast_S32x32_S32x32x1_0_1 : S32x32.BroadcastsInDim S32x32x1 (![0, 1] : Fin 2 → Fin S32x32x1.rank)
  bcast_S32x128_S1x32x128_1_2 : S32x128.BroadcastsInDim S1x32x128 (![1, 2] : Fin 2 → Fin S1x32x128.rank)
  bcast_S32x32x1_S32x32x128_0_1_2 : S32x32x1.BroadcastsInDim S32x32x128 (![0, 1, 2] : Fin 3 → Fin S32x32x128.rank)
  bcast_S1x32x128_S32x32x128_0_1_2 : S1x32x128.BroadcastsInDim S32x32x128 (![0, 1, 2] : Fin 3 → Fin S32x32x128.rank)
  dot_S32x16384x128_S32x128_S32x16384x32_2_1_01_0_n_n_wf : DotDims.WF S32x16384x128 S32x128 S32x16384x32 [2] [1] [0, 1] [0] [] []
  dot_S32x16384x32_S32x16384x128_S32x32x128_1_1_2_2_0_0_wf : DotDims.WF S32x16384x32 S32x16384x128 S32x32x128 [1] [1] [2] [2] [0] [0]

variable [Facts₀]

def dot_S32x16384x128_S32x128_S32x16384x32_2_1_01_0_n_n : DotDims S32x16384x128 S32x128 S32x16384x32 where
  lhsContracting := [2]
  rhsContracting := [1]
  lhsNonContracting := [0, 1]
  rhsNonContracting := [0]
  lhsBatch := []
  rhsBatch := []
  wf := dot_S32x16384x128_S32x128_S32x16384x32_2_1_01_0_n_n_wf
def dot_S32x16384x32_S32x16384x128_S32x32x128_1_1_2_2_0_0 : DotDims S32x16384x32 S32x16384x128 S32x32x128 where
  lhsContracting := [1]
  rhsContracting := [1]
  lhsNonContracting := [2]
  rhsNonContracting := [2]
  lhsBatch := [0]
  rhsBatch := [0]
  wf := dot_S32x16384x32_S32x16384x128_S32x32x128_1_1_2_2_0_0_wf

class Facts : Prop extends Facts₀ where

variable [Facts]
-- ==== Proof.FiniteInputs.lean ====
/-
  THE PRECONDITION `finite_inputs` READ BACK AT THE IDEAL VALUES. The generated function
  `Cert.Pre_finite_inputs.fn` computes, for each of its three float arrays, `jnp.all(|x| < +inf)`: the absolute value,
  a comparison `<` against the broadcast f32 word 0x7F800000 (which denotes +∞), and a reduction of the resulting
  one-bit array by `and` over every axis, from the constant 1; the three one-bit results are then anded. At the ideal
  values a float is an extended real and `|x|` is `max x (-x)`. If the function's one result word is 1, each of the
  three reductions is 1, so every compared element is 1, i.e. `max x (-x) < ⊤` at every entry `x`; neither `⊤` nor
  `⊥` satisfies that (`max ⊤ (-⊤) = ⊤`, `max ⊥ (-⊥) = ⊤`), so every entry is the coercion of a real number.
-/
import proofs.«132826_j566935683617_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteInputs

open Idealize.ShloMosaic Cert.Pre_finite_inputs

/-- The scalar shape has exactly one index: two indices are functions out of the empty set of axes. -/
instance : Subsingleton S_.Idx := ⟨fun a b => funext fun d => d.elim0⟩

/-- The f32 word 0x7F800000 (sign 0, exponent all ones, significand 0) denotes +∞. -/
theorem inf_bits : Ideal.ofBits .f32 0x7F800000#32 = (⊤ : EReal) := by
  simp [Ideal.ofBits, Ideal.ieee]

/-- An extended real whose absolute value `max x (-x)` compares strictly below +∞ is a real number: at `⊥` and at
    `⊤` the absolute value is `⊤`, which is not below `⊤`. -/
theorem real_of_abs_lt (x : EReal)
    (h : Ideal.cmp .olt (max x (-x)) (Ideal.ofBits .f32 0x7F800000#32) = 1#1) : ∃ r : ℝ, x = (r : EReal) := by
  rw [inf_bits] at h
  unfold Ideal.cmp at h
  induction x using EReal.rec with
  | bot => simp at h
  | coe r => exact ⟨r, rfl⟩
  | top => simp at h

variable [Cert.Pre_finite_inputs.Facts]

/-- THE PRECONDITION DECODED: if `finite_inputs` evaluates to true at the ideal values, every entry of each of the three
    arrays is a real number. -/
theorem real_of_pre (x0 : FVec Ideal S32x128x128x128 .f32) (x1 : FVec Ideal S32x128 .f32) (x2 : FVec Ideal S32 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the rank-0 result has one index; read the claim there
  have e := congrFun h ValueIdx.ix0
  dsimp only [Cert.Pre_finite_inputs.fn, andi] at e
  -- the result is the `and` of the three reductions: each of them is 1
  rw [IntOp.andi_eq_one, IntOp.andi_eq_one] at e
  obtain ⟨⟨h0, h1⟩, h2⟩ := e
  -- a reduction by `and` over every axis that is 1 met a 1 at every index: `|x i| < +∞` there
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i)⟩

end Cert.FiniteInputs
-- ==== Proof.Spec.lean ====
/-
  The function both programs compute, stated once over the extended reals.

  One image is a matrix `x d n` (128 features down, 16384 positions across), the codebook is `cw k d` (32 codewords),
  and `s k` is the per-codeword scale. Position `n` is softly assigned to codeword `k` with weight
      w k n = exp (L k n - max_k' L k' n) / Σ_k' exp (L k' n - max_k' L k' n),
  where the logit `L k n` is the scaled squared distance `s k · ‖x_n - c_k‖²` written through the expanded
  quadratic `‖x_n‖² - 2 x_n·c_k + ‖c_k‖²`, and the result is the aggregated residual
      E k d = Σ_n w k n · x d n  -  (Σ_n w k n) · cw k d.
  The two programs differ only in how the logit is spelt: the reference multiplies the whole quadratic by `s k`
  (`logitIn`), the kernel has the scale distributed over the three terms, and inside the inner product over `d`
  (`logitOut`). On the extended reals a product does not distribute over a sum at the infinities, so the two
  spellings agree where every entry is a real number (`logitOut_eq_logitIn`), which is what finite inputs give;
  everything after the logit is one and the same function of it (`residual`).
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-! ## One image -/

/-- The squared length of column `n` of an image. -/
def sqNorm (x : Fin 128 → Fin 16384 → EReal) (n : Fin 16384) : EReal := ∑ d : Fin 128, x d n * x d n

/-- The squared length of codeword `k`. -/
def codeSq (cw : Fin 32 → Fin 128 → EReal) (k : Fin 32) : EReal := ∑ d : Fin 128, cw k d * cw k d

/-- The scaled squared distance with the scale OUTSIDE the expanded quadratic: `s k · ((‖x_n‖² - two · x_n·c_k) + ‖c_k‖²)`. -/
def logitIn (two : EReal) (x : Fin 128 → Fin 16384 → EReal) (cw : Fin 32 → Fin 128 → EReal) (s : Fin 32 → EReal)
    (k : Fin 32) (n : Fin 16384) : EReal :=
  s k * ((sqNorm x n - two * ∑ d : Fin 128, x d n * cw k d) + codeSq cw k)

/-- The same with the scale DISTRIBUTED: `(s k · ‖x_n‖² + Σ_d ((mtwo · s k) · c_k d) · x d n) + s k · ‖c_k‖²`. -/
def logitOut (mtwo : EReal) (x : Fin 128 → Fin 16384 → EReal) (cw : Fin 32 → Fin 128 → EReal) (s : Fin 32 → EReal)
    (k : Fin 32) (n : Fin 16384) : EReal :=
  (s k * sqNorm x n + ∑ d : Fin 128, ((mtwo * s k) * cw k d) * x d n) + s k * codeSq cw k

/-- The largest logit of position `n` over the codewords, folded from `B`. -/
def colMax (B : EReal) (L : Fin 32 → Fin 16384 → EReal) (n : Fin 16384) : EReal :=
  (Finset.univ : Finset (Fin 32)).fold max B (fun k => L k n)

/-- The soft-assignment weight of position `n` to codeword `k`: the softmax over the codewords of the logits. -/
def weight (B : EReal) (L : Fin 32 → Fin 16384 → EReal) (k : Fin 32) (n : Fin 16384) : EReal :=
  Ideal.div (Ideal.exp (L k n - colMax B L n)) (∑ k' : Fin 32, Ideal.exp (L k' n - colMax B L n))

/-- The aggregated residual of codeword `k` at feature `d`: `Σ_n w k n · x d n - (Σ_n w k n) · c_k d`. -/
def residual (B : EReal) (L : Fin 32 → Fin 16384 → EReal) (x : Fin 128 → Fin 16384 → EReal) (cw : Fin 32 → Fin 128 → EReal)
    (k : Fin 32) (d : Fin 128) : EReal :=
  (∑ n : Fin 16384, weight B L k n * x d n) - (∑ n : Fin 16384, weight B L k n) * cw k d

/-! ## The law between the two spellings of the logit -/

/-- The coercion of the reals into the extended reals carries a finite sum to the sum of the coercions. -/
theorem coe_sum {ι : Type} (t : Finset ι) (f : ι → ℝ) : ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- Where the image, the codebook and the scales are real, the distributed spelling (with `-2`) is the undistributed one
    (with `2`): in the reals `s·a + Σ_d ((-2·s)·c_d)·x_d + s·b = s·((a - 2·Σ_d x_d·c_d) + b)`. -/
theorem logitOut_eq_logitIn (xr : Fin 128 → Fin 16384 → ℝ) (cr : Fin 32 → Fin 128 → ℝ) (sr : Fin 32 → ℝ)
    (k : Fin 32) (n : Fin 16384) :
    logitOut (((-2 : ℝ)) : EReal) (fun d n => (xr d n : EReal)) (fun k d => (cr k d : EReal)) (fun k => (sr k : EReal)) k n
      = logitIn (((2 : ℝ)) : EReal) (fun d n => (xr d n : EReal)) (fun k d => (cr k d : EReal)) (fun k => (sr k : EReal)) k n := by
  unfold logitOut logitIn sqNorm codeSq
  simp only [← EReal.coe_mul, ← coe_sum, ← EReal.coe_add, ← EReal.coe_sub]
  have e : ∑ d : Fin 128, ((-2 * sr k) * cr k d) * xr d n = -2 * sr k * ∑ d : Fin 128, xr d n * cr k d := by
    rw [Finset.mul_sum]; exact Finset.sum_congr rfl fun d _ => by ring
  rw [e]
  congr 1
  ring

/-! ## The two literals the logits spell, and the zero the sums start from -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-2.0` denotes the real `-2`. -/
theorem ofBits_neg_two : Ideal.ofBits .f32 0xC0000000#32 = ((-2 : ℝ) : EReal) := by
  simp [Ideal.ofBits, Ideal.ieee, -EReal.coe_mul]; norm_num

/-! ## The whole result array -/

/-- The images `[32, 128, 16384]`, the codebook `[32, 128]`, the scales `[32]` and the result `[32, 32, 128]`. -/
abbrev SX : Shape := ⟨3, ![32, 128, 16384]⟩
abbrev SC : Shape := ⟨2, ![32, 128]⟩
abbrev SS : Shape := ⟨1, ![32]⟩
abbrev SE : Shape := ⟨3, ![32, 32, 128]⟩

/-- Image `b` of the batch as a matrix. -/
def image (X : SX.Idx → EReal) (b : Fin 32) : Fin 128 → Fin 16384 → EReal := fun d n => X (ix3 b d n)
/-- The codebook as a matrix. -/
def codes (C : SC.Idx → EReal) : Fin 32 → Fin 128 → EReal := fun k d => C (ix2 k d)
/-- The scales as a family. -/
def scales (S : SS.Idx → EReal) : Fin 32 → EReal := fun k => S (ix1 k)

/-- The result array from a family of logits, one matrix of logits per image: entry `(b, k, d)` is the aggregated
    residual of image `b`. -/
def encodeWith (L : Fin 32 → Fin 32 → Fin 16384 → EReal) (B : EReal) (X : SX.Idx → EReal) (C : SC.Idx → EReal) :
    SE.Idx → EReal :=
  fun i => residual B (L (i 0)) (image X (i 0)) (codes C) (i 1) (i 2)

/-- The result with the undistributed logit (how the reference spells it). -/
def encodeIn (two B : EReal) (X : SX.Idx → EReal) (C : SC.Idx → EReal) (S : SS.Idx → EReal) : SE.Idx → EReal :=
  encodeWith (fun b => logitIn two (image X b) (codes C) (scales S)) B X C

/-- The result with the distributed logit (how the kernel spells it). -/
def encodeOut (mtwo B : EReal) (X : SX.Idx → EReal) (C : SC.Idx → EReal) (S : SS.Idx → EReal) : SE.Idx → EReal :=
  encodeWith (fun b => logitOut mtwo (image X b) (codes C) (scales S)) B X C

/-- Where every entry of the three arrays is real, the two spellings give one result array. -/
theorem encodeOut_eq_encodeIn (B : EReal) (X : SX.Idx → EReal) (C : SC.Idx → EReal) (S : SS.Idx → EReal)
    (hX : ∀ i, ∃ r : ℝ, X i = (r : EReal)) (hC : ∀ i, ∃ r : ℝ, C i = (r : EReal)) (hS : ∀ i, ∃ r : ℝ, S i = (r : EReal)) :
    encodeOut (((-2 : ℝ)) : EReal) B X C S = encodeIn (((2 : ℝ)) : EReal) B X C S := by
  choose xr hxr using hX
  choose cr hcr using hC
  choose sr hsr using hS
  unfold encodeOut encodeIn
  congr 1
  funext b k n
  have e1 : image X b = fun d n => ((xr (ix3 b d n) : ℝ) : EReal) := funext fun d => funext fun n => hxr _
  have e2 : codes C = fun k d => ((cr (ix2 k d) : ℝ) : EReal) := funext fun k => funext fun d => hcr _
  have e3 : scales S = fun k => ((sr (ix1 k) : ℝ) : EReal) := funext fun k => hsr _
  rw [e1, e2, e3]
  exact logitOut_eq_logitIn (fun d n => xr (ix3 b d n)) (fun k d => cr (ix2 k d)) (fun k => sr (ix1 k)) k n

end Cert.SoftAssign

end
-- ==== Proof.RefValue.lean ====
/-
  THE REFERENCE'S RESULT IS THE SOFT-ASSIGNMENT RESIDUAL WITH THE UNDISTRIBUTED LOGIT. The reference program's
  result array is read, stage by stage, at an index named by its coordinates: with `X` the `[32, 128, 16384]` reshape
  of the first argument (image `b` is the matrix `x d n = X (b, d, n)`), `cw` the codebook and `s` the scales,
    the transposed image at `(b, n, d)` is `x d n`;
    the row sums `Σ_d x d n · x d n` and `Σ_d cw k d · cw k d` are `sqNorm` and `codeSq` (each sum starts from the zero word, `0 + ·`);
    the contraction at `(b, n, k)` is `Σ_d x d n · cw k d`;
    the logit at `(b, n, k)` is `s k · ((sqNorm x n - two · Σ_d x d n · cw k d) + codeSq cw k)`, i.e. `logitIn`;
    the reduction by maximum over `k` from the word `B` is the fold of `max` from `B`, and the further `max B ·` changes
      nothing since `B` is already below a fold that starts from it: `colMax`;
    the exponential of the shifted logit, its sum over `k` and their quotient are `weight`;
    the second contraction `Σ_n w k n · x d n`, the sum `Σ_n w k n` and its product with `cw k d` give `residual`.
  The two literals (the word of `2.0` and the word `B` of `-∞`) are kept as the words' values, unevaluated.
-/
import proofs.«132826_j566935683617_2_alg».proof.Proof.Gen.ReferenceIdeal.Read
import proofs.«132826_j566935683617_2_alg».proof.Proof.Spec
import Idealize.ShloMosaic.PureOps.Ideal
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Cert.SoftAssign Idealize.ShloMosaic Idealize.ShloMosaic.ValueIdx

variable (x0 : (⟨S32x128x128x128, .f32⟩ : BufTy).Contents (Elt Ideal)) (x1 : (⟨S32x128, .f32⟩ : BufTy).Contents (Elt Ideal))
  (x2 : (⟨S32, .f32⟩ : BufTy).Contents (Elt Ideal))

/-! ## The transposed image -/

/-- The transposed image at `(b, n, d)` is image `b` at `(d, n)`. -/
theorem v1_ix (b : Fin 32) (n : Fin 16384) (d : Fin 128) :
    val_main_v1 (F := Ideal) x0 (ix3 b n d) = image (val_main_v0 (F := Ideal) x0) b d n := by
  rw [val_main_v1_apply]
  unfold image
  exact congrArg _ (funext fun a => Fin.ext (by match a with | ⟨0, _⟩ => rfl | ⟨1, _⟩ => rfl | ⟨2, _⟩ => rfl))

/-! ## The squared lengths and the inner product -/

/-- The row sum of the squared transposed image is the squared length of a column of the image. -/
theorem v3_ix (b : Fin 32) (n : Fin 16384) :
    val_main_v3 (F := Ideal) x0 (ix2 b n) = sqNorm (image (val_main_v0 (F := Ideal) x0) b) n := by
  rw [val_main_v3_apply, val_main_cst_apply, Ideal.ofBits_def, Ideal.ofBits_zero_f32, zero_add]
  unfold sqNorm
  refine Finset.sum_congr rfl fun d _ => ?_
  have e : idx_main_v3 (ix2 b n) d = ix3 b n d :=
    funext fun a => Fin.ext (by match a with | ⟨0, _⟩ => rfl | ⟨1, _⟩ => rfl | ⟨2, _⟩ => rfl)
  rw [val_main_v2_apply, Ideal.mulf_def, e, v1_ix]

/-- The row sum of the squared codebook is the squared length of a codeword. -/
theorem v6_ix (k : Fin 32) : val_main_v6 (F := Ideal) x1 (ix1 k) = codeSq (codes x1) k := by
  rw [val_main_v6_apply, val_main_cst_0_apply, Ideal.ofBits_def, Ideal.ofBits_zero_f32, zero_add]
  unfold codeSq codes
  refine Finset.sum_congr rfl fun d _ => ?_
  have e : idx_main_v6 (ix1 k) d = ix2 k d :=
    funext fun a => Fin.ext (by match a with | ⟨0, _⟩ => rfl | ⟨1, _⟩ => rfl)
  rw [val_main_v5_apply, Ideal.mulf_def, e]

/-- The contraction of the transposed image with the codebook over the features. -/
theorem v7_ix (b : Fin 32) (n : Fin 16384) (k : Fin 32) :
    val_main_v7 (F := Ideal) x0 x1 (ix3 b n k)
      = ∑ d : Fin 128, image (val_main_v0 (F := Ideal) x0) b d n * codes x1 k d := by
  rw [val_main_v7_apply]
  refine Finset.sum_congr rfl fun d _ => ?_
  have el : lidx_main_v7 (ix3 b n k) d = ix3 b n d :=
    funext fun a => Fin.ext (by match a with | ⟨0, _⟩ => rfl | ⟨1, _⟩ => rfl | ⟨2, _⟩ => rfl)
  have er : ridx_main_v7 (ix3 b n k) d = ix2 k d :=
    funext fun a => Fin.ext (by match a with | ⟨0, _⟩ => rfl | ⟨1, _⟩ => rfl)
  rw [el, er, v1_ix]
  rfl

/-! ## The logit -/

/-- The logit at `(b, n, k)`: the scale of codeword `k` times the expanded quadratic, the scale outside. -/
theorem v17_ix (b : Fin 32) (n : Fin 16384) (k : Fin 32) :
    val_main_v17 (F := Ideal) x0 x1 x2 (ix3 b n k)
      = logitIn (Ideal.ofBits .f32 0x40000000#32) (image (val_main_v0 (F := Ideal) x0) b) (codes x1) (scales x2) k n := by
  have e16 : idx_main_v15 (idx_main_v16 (ix3 b n k)) = ix1 k :=
    funext fun a => Fin.ext (by match a with | ⟨0, _⟩ => rfl)
  have e10 : idx_main_v4 (idx_main_v10 (ix3 b n k)) = ix2 b n :=
    funext fun a => Fin.ext (by match a with | ⟨0, _⟩ => rfl | ⟨1, _⟩ => rfl)
  have e13 : idx_main_v12 (idx_main_v13 (ix3 b n k)) = ix1 k :=
    funext fun a => Fin.ext (by match a with | ⟨0, _⟩ => rfl)
  rw [val_main_v17_apply, Ideal.mulf_def, val_main_v16_apply, val_main_v15_apply, e16,
    val_main_v14_apply, Ideal.addf_def, val_main_v11_apply, Ideal.subf_def,
    val_main_v10_apply, val_main_v4_apply, e10, v3_ix,
    val_main_v9_apply, Ideal.mulf_def, val_main_v8_apply, val_main_cst_1_apply, Ideal.ofBits_def, v7_ix,
    val_main_v13_apply, val_main_v12_apply, e13, v6_ix]
  rfl

/-! ## The largest logit of a position -/

/-- The reduction by maximum over the codewords, from the word `B`, is the fold of `max` from `B` over the codewords:
    `max` is commutative and associative, so the fold over the indices that drop to `(b, n)` is the fold over the
    coordinate of the dropped axis, and the index `(b, n)` with coordinate `k` inserted last is `(b, n, k)`. -/
theorem v18_ix (b : Fin 32) (n : Fin 16384) :
    val_main_v18 (F := Ideal) x0 x1 x2 (ix2 b n)
      = (Finset.univ : Finset (Fin 32)).fold max (Ideal.ofBits .f32 0xFF800000#32)
          (fun k => val_main_v17 (F := Ideal) x0 x1 x2 (ix3 b n k)) := by
  have h : S32x16384x32.Reduces [2] S32x16384 := by decide
  unfold val_main_v18
  generalize val_main_v17 (F := Ideal) x0 x1 x2 = y
  refine (Host.reduce_eq_fold_single (FloatOps.maximumf (F := Ideal) (φ := .f32)) y _ reducesTo_S32x16384x32_S32x16384_d2 h h_S_ (ix2 b n)).trans ?_
  have e : y ∘ h.lift (ix2 b n) = fun k : Fin 32 => y (ix3 b n k) :=
    funext fun k => congrArg y (funext fun a => Fin.ext (by match a with | ⟨0, _⟩ => rfl | ⟨1, _⟩ => rfl | ⟨2, _⟩ => rfl))
  exact congrArg (fun f : Fin 32 → EReal => (Finset.univ : Finset (Fin 32)).fold max (Ideal.ofBits .f32 0xFF800000#32) f) e

/-- The maximum the logits are shifted by: the further `max B ·` is absorbed, `B` being below a fold of `max` that starts from it. -/
theorem v20_ix (b : Fin 32) (n : Fin 16384) :
    val_main_v20 (F := Ideal) x0 x1 x2 (ix2 b n)
      = colMax (Ideal.ofBits .f32 0xFF800000#32)
          (logitIn (Ideal.ofBits .f32 0x40000000#32) (image (val_main_v0 (F := Ideal) x0) b) (codes x1) (scales x2)) n := by
  rw [val_main_v20_apply, Ideal.maximumf_def, val_main_v19_apply, val_main_cst_3_apply, Ideal.ofBits_def, v18_ix]
  unfold colMax
  simp only [v17_ix]
  exact max_eq_right ((Finset.le_fold_max _).mpr (Or.inl le_rfl))

/-! ## The soft-assignment weight -/

/-- The exponential of the logit shifted by the position's largest logit. -/
theorem v24_ix (b : Fin 32) (n : Fin 16384) (k : Fin 32) :
    val_main_v24 (F := Ideal) x0 x1 x2 (ix3 b n k)
      = Ideal.exp (logitIn (Ideal.ofBits .f32 0x40000000#32) (image (val_main_v0 (F := Ideal) x0) b) (codes x1) (scales x2) k n
          - colMax (Ideal.ofBits .f32 0xFF800000#32)
              (logitIn (Ideal.ofBits .f32 0x40000000#32) (image (val_main_v0 (F := Ideal) x0) b) (codes x1) (scales x2)) n) := by
  have e22 : idx_main_v21 (idx_main_v22 (ix3 b n k)) = ix2 b n :=
    funext fun a => Fin.ext (by match a with | ⟨0, _⟩ => rfl | ⟨1, _⟩ => rfl)
  rw [val_main_v24_apply, Ideal.hostUnary_exp_def, val_main_v23_apply, Ideal.subf_def, v17_ix,
    val_main_v22_apply, val_main_v21_apply, e22, v20_ix]

/-- The sum over the codewords of the shifted exponentials (the sum starts from the zero word). -/
theorem v25_ix (b : Fin 32) (n : Fin 16384) :
    val_main_v25 (F := Ideal) x0 x1 x2 (ix2 b n)
      = ∑ k' : Fin 32,
          Ideal.exp (logitIn (Ideal.ofBits .f32 0x40000000#32) (image (val_main_v0 (F := Ideal) x0) b) (codes x1) (scales x2) k' n
            - colMax (Ideal.ofBits .f32 0xFF800000#32)
                (logitIn (Ideal.ofBits .f32 0x40000000#32) (image (val_main_v0 (F := Ideal) x0) b) (codes x1) (scales x2)) n) := by
  rw [val_main_v25_apply, val_main_cst_4_apply, Ideal.ofBits_def, Ideal.ofBits_zero_f32, zero_add]
  refine Finset.sum_congr rfl fun k' _ => ?_
  have e : idx_main_v25 (ix2 b n) k' = ix3 b n k' :=
    funext fun a => Fin.ext (by match a with | ⟨0, _⟩ => rfl | ⟨1, _⟩ => rfl | ⟨2, _⟩ => rfl)
  rw [e, v24_ix]

/-- The quotient of the two is the soft-assignment weight of position `n` to codeword `k`. -/
theorem v28_ix (b : Fin 32) (n : Fin 16384) (k : Fin 32) :
    val_main_v28 (F := Ideal) x0 x1 x2 (ix3 b n k)
      = weight (Ideal.ofBits .f32 0xFF800000#32)
          (logitIn (Ideal.ofBits .f32 0x40000000#32) (image (val_main_v0 (F := Ideal) x0) b) (codes x1) (scales x2)) k n := by
  have e27 : idx_main_v26 (idx_main_v27 (ix3 b n k)) = ix2 b n :=
    funext fun a => Fin.ext (by match a with | ⟨0, _⟩ => rfl | ⟨1, _⟩ => rfl)
  rw [val_main_v28_apply, Ideal.hostDivf_def, v24_ix, val_main_v27_apply, val_main_v26_apply, e27, v25_ix]
  rfl

/-! ## The aggregated residual -/

/-- The contraction of the weights with the transposed image over the positions. -/
theorem v29_ix (b : Fin 32) (k : Fin 32) (d : Fin 128) :
    val_main_v29 (F := Ideal) x0 x1 x2 (ix3 b k d)
      = ∑ n : Fin 16384,
          weight (Ideal.ofBits .f32 0xFF800000#32)
            (logitIn (Ideal.ofBits .f32 0x40000000#32) (image (val_main_v0 (F := Ideal) x0) b) (codes x1) (scales x2)) k n
          * image (val_main_v0 (F := Ideal) x0) b d n := by
  rw [val_main_v29_apply]
  refine Finset.sum_congr rfl fun n _ => ?_
  have el : lidx_main_v29 (ix3 b k d) n = ix3 b n k :=
    funext fun a => Fin.ext (by match a with | ⟨0, _⟩ => rfl | ⟨1, _⟩ => rfl | ⟨2, _⟩ => rfl)
  have er : ridx_main_v29 (ix3 b k d) n = ix3 b n d :=
    funext fun a => Fin.ext (by match a with | ⟨0, _⟩ => rfl | ⟨1, _⟩ => rfl | ⟨2, _⟩ => rfl)
  rw [el, er, v28_ix, v1_ix]

/-- The sum of the weights over the positions (the sum starts from the zero word). -/
theorem v30_ix (b : Fin 32) (k : Fin 32) :
    val_main_v30 (F := Ideal) x0 x1 x2 (ix2 b k)
      = ∑ n : Fin 16384,
          weight (Ideal.ofBits .f32 0xFF800000#32)
            (logitIn (Ideal.ofBits .f32 0x40000000#32) (image (val_main_v0 (F := Ideal) x0) b) (codes x1) (scales x2)) k n := by
  rw [val_main_v30_apply, val_main_cst_5_apply, Ideal.ofBits_def, Ideal.ofBits_zero_f32, zero_add]
  refine Finset.sum_congr rfl fun n _ => ?_
  have e : idx_main_v30 (ix2 b k) n = ix3 b n k :=
    funext fun a => Fin.ext (by match a with | ⟨0, _⟩ => rfl | ⟨1, _⟩ => rfl | ⟨2, _⟩ => rfl)
  rw [e, v28_ix]

/-- The summed weights times the codeword's feature. -/
theorem v35_ix (b : Fin 32) (k : Fin 32) (d : Fin 128) :
    val_main_v35 (F := Ideal) x0 x1 x2 (ix3 b k d)
      = (∑ n : Fin 16384,
          weight (Ideal.ofBits .f32 0xFF800000#32)
            (logitIn (Ideal.ofBits .f32 0x40000000#32) (image (val_main_v0 (F := Ideal) x0) b) (codes x1) (scales x2)) k n)
        * codes x1 k d := by
  have e33 : idx_main_v31 (idx_main_v33 (ix3 b k d)) = ix2 b k :=
    funext fun a => Fin.ext (by match a with | ⟨0, _⟩ => rfl | ⟨1, _⟩ => rfl)
  have e34 : idx_main_v32 (idx_main_v34 (ix3 b k d)) = ix2 k d :=
    funext fun a => Fin.ext (by match a with | ⟨0, _⟩ => rfl | ⟨1, _⟩ => rfl)
  rw [val_main_v35_apply, Ideal.mulf_def, val_main_v33_apply, val_main_v31_apply, e33, v30_ix,
    val_main_v34_apply, val_main_v32_apply, e34]
  rfl

/-! ## The result -/

/-- THE REFERENCE'S RESULT ARRAY is the aggregated residual of each image under the undistributed logit, with the
    words of `2.0` and of `-∞` read as they stand. -/
theorem result_eq :
    val_main_v36 (F := Ideal) x0 x1 x2
      = encodeIn (Ideal.ofBits .f32 0x40000000#32) (Ideal.ofBits .f32 0xFF800000#32) (val_main_v0 (F := Ideal) x0) x1 x2 := by
  funext i
  obtain ⟨b, k, d, rfl⟩ : ∃ b k d, i = ix3 b k d := ⟨i 0, i 1, i 2, eq_ix3 i⟩
  rw [val_main_v36_apply, Ideal.subf_def, v29_ix, v35_ix]
  rfl

end Cert.ReferenceIdeal.RefValue

end
-- ==== Proof.KernelBody.lean ====
/-
  The kernel's body read index by index, at the extended reals.

  For one image of the block the body computes, from the slice `xb` ([1, 128, 16384]: features down, positions across),
  the transposed rescaled codebook `cwT` ([128, 32]), the codebook `cw` ([32, 128]) and two columns `sc2`, `scol`
  ([32, 1]): the matrix of logits  `scol k · Σ_d x d n · x d n + Σ_d cwT d k · x d n + sc2 k`  (a column sum of squares,
  a matrix product contracted over the features, two column broadcasts); its column maximum over the 32 codewords; the
  exponentials of the differences; their column sums; the quotients (the soft-assignment weights); and then the
  matrix product of the weights with the image contracted over the 16384 positions, less the row sums of the weights
  times the codebook. Below the body is cut into those stages, each stage is read at an index as a finite sum, a fold of
  `max`, or one arithmetic operation of the entries (changes of float format are the identity on the extended reals),
  and the two stores' payloads are shown to be this one function of the two slices of the block.
-/
import proofs.«132826_j566935683617_2_alg».proof.Proof.Gen.KernelIdeal.Skeleton
import proofs.«132826_j566935683617_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.SoftAssign Idealize.ShloMosaic Idealize.ShloMosaic.ValueIdx

/-! ## Two layout readings: a column kept as a one-column matrix -/

section Layout
variable {α : Type}

/-- A vector `[a]` viewed as the one-column matrix `[a, 1]` reads its entry `i` at `(i, 0)`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix `[a, 1]` broadcast along its rows to `[a, b]` reads `(p, 0)` at every `(p, c)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products' operand indices -/

theorem lhs1_0 (j : S32x16384.Idx) (q : dot_S128x32_S128x16384_S32x16384_0_0_1_1_n_n.contr.Idx) :
    (dot_S128x32_S128x16384_S32x16384_0_0_1_1_n_n.lhsIdx j q 0).val = (q ⟨0, by decide⟩).val :=
  dot_S128x32_S128x16384_S32x16384_0_0_1_1_n_n.lhsIdx_val_of_single rfl j q
theorem lhs1_1 (j : S32x16384.Idx) (q : dot_S128x32_S128x16384_S32x16384_0_0_1_1_n_n.contr.Idx) :
    (dot_S128x32_S128x16384_S32x16384_0_0_1_1_n_n.lhsIdx j q 1).val = (j 0).val := by
  unfold DotDims.lhsIdx
  rw [dif_neg (show ¬(1 : Fin S128x32.rank) ∈ dot_S128x32_S128x16384_S32x16384_0_0_1_1_n_n.lhsBatch by decide), dif_pos (show (1 : Fin S128x32.rank) ∈ dot_S128x32_S128x16384_S32x16384_0_0_1_1_n_n.lhsNonContracting by decide)]
  rfl
theorem rhs1_0 (j : S32x16384.Idx) (q : dot_S128x32_S128x16384_S32x16384_0_0_1_1_n_n.contr.Idx) :
    (dot_S128x32_S128x16384_S32x16384_0_0_1_1_n_n.rhsIdx j q 0).val = (q ⟨0, by decide⟩).val :=
  dot_S128x32_S128x16384_S32x16384_0_0_1_1_n_n.rhsIdx_val_of_single rfl j q
theorem rhs1_1 (j : S32x16384.Idx) (q : dot_S128x32_S128x16384_S32x16384_0_0_1_1_n_n.contr.Idx) :
    (dot_S128x32_S128x16384_S32x16384_0_0_1_1_n_n.rhsIdx j q 1).val = (j 1).val := by
  unfold DotDims.rhsIdx
  rw [dif_neg (show ¬(1 : Fin S128x16384.rank) ∈ dot_S128x32_S128x16384_S32x16384_0_0_1_1_n_n.rhsBatch by decide), dif_pos (show (1 : Fin S128x16384.rank) ∈ dot_S128x32_S128x16384_S32x16384_0_0_1_1_n_n.rhsNonContracting by decide)]
  rfl

theorem lhs2_0 (j : S32x128.Idx) (q : dot_S32x16384_S128x16384_S32x128_1_1_0_0_n_n.contr.Idx) :
    (dot_S32x16384_S128x16384_S32x128_1_1_0_0_n_n.lhsIdx j q 0).val = (j 0).val := by
  unfold DotDims.lhsIdx
  rw [dif_neg (show ¬(0 : Fin S32x16384.rank) ∈ dot_S32x16384_S128x16384_S32x128_1_1_0_0_n_n.lhsBatch by decide), dif_pos (show (0 : Fin S32x16384.rank) ∈ dot_S32x16384_S128x16384_S32x128_1_1_0_0_n_n.lhsNonContracting by decide)]
  rfl
theorem lhs2_1 (j : S32x128.Idx) (q : dot_S32x16384_S128x16384_S32x128_1_1_0_0_n_n.contr.Idx) :
    (dot_S32x16384_S128x16384_S32x128_1_1_0_0_n_n.lhsIdx j q 1).val = (q ⟨0, by decide⟩).val :=
  dot_S32x16384_S128x16384_S32x128_1_1_0_0_n_n.lhsIdx_val_of_single rfl j q
theorem rhs2_0 (j : S32x128.Idx) (q : dot_S32x16384_S128x16384_S32x128_1_1_0_0_n_n.contr.Idx) :
    (dot_S32x16384_S128x16384_S32x128_1_1_0_0_n_n.rhsIdx j q 0).val = (j 1).val := by
  unfold DotDims.rhsIdx
  rw [dif_neg (show ¬(0 : Fin S128x16384.rank) ∈ dot_S32x16384_S128x16384_S32x128_1_1_0_0_n_n.rhsBatch by decide), dif_pos (show (0 : Fin S128x16384.rank) ∈ dot_S32x16384_S128x16384_S32x128_1_1_0_0_n_n.rhsNonContracting by decide)]
  rfl
theorem rhs2_1 (j : S32x128.Idx) (q : dot_S32x16384_S128x16384_S32x128_1_1_0_0_n_n.contr.Idx) :
    (dot_S32x16384_S128x16384_S32x128_1_1_0_0_n_n.rhsIdx j q 1).val = (q ⟨0, by decide⟩).val :=
  dot_S32x16384_S128x16384_S32x128_1_1_0_0_n_n.rhsIdx_val_of_single rfl j q

/-! ## The body in stages -/

/-- The seed of the column maximum: the pattern of `-∞`. -/
abbrev B : EReal := Ideal.ofBits .f32 0xFF800000#32

/-- The slice as a matrix. -/
def imgV (xb : FVec Ideal S1x128x16384 .f32) : FVec Ideal S128x16384 .f32 :=
  shapeCast S128x16384 xb Gen.shapeCasts_S1x128x16384_S128x16384

/-- The squared lengths of the columns, kept as a row. -/
def sqV (xb : FVec Ideal S1x128x16384 .f32) : FVec Ideal S1x16384 .f32 :=
  shapeCast S1x16384 (multiReduction .add [0] S16384 (mulf (imgV xb) (imgV xb)) 0x00000000#32 Gen.reduces_S128x16384_S16384 (.inl rfl) rfl) Gen.shapeCasts_S16384_S1x16384

/-- The inner products of the rescaled codewords with the columns. -/
def dotV (cwT : FVec Ideal S128x32 .bf16) (xb : FVec Ideal S1x128x16384 .f32) : FVec Ideal S32x16384 .f32 :=
  matmul dot_S128x32_S128x16384_S32x16384_0_0_1_1_n_n none cwT (truncf .bf16 (imgV xb) Gen.bitsLt_bf16_f32) (constant S32x16384 .f32 0x00000000#32)

/-- The logits. -/
def logitV (cwT : FVec Ideal S128x32 .bf16) (sc2 scol : FVec Ideal S32x1 .f32) (xb : FVec Ideal S1x128x16384 .f32) : FVec Ideal S32x16384 .f32 :=
  addf (addf (mulf (broadcastTo S32x16384 scol Gen.broadcasts_S32x1_S32x16384) (broadcastTo S32x16384 (sqV xb) Gen.broadcasts_S1x16384_S32x16384)) (dotV cwT xb))
    (broadcastTo S32x16384 sc2 Gen.broadcasts_S32x1_S32x16384)

/-- The column maxima of a matrix of logits, kept as a row. -/
def maxV (lg : FVec Ideal S32x16384 .f32) : FVec Ideal S1x16384 .f32 :=
  shapeCast S1x16384 (multiReduction .maximumf [0] S16384 lg 0xFF800000#32 Gen.reduces_S32x16384_S16384 (.inl rfl) rfl) Gen.shapeCasts_S16384_S1x16384

/-- The exponentials of the logits less their column maximum. -/
def expV (lg : FVec Ideal S32x16384 .f32) : FVec Ideal S32x16384 .f32 :=
  exp (subf lg (broadcastTo S32x16384 (maxV lg) Gen.broadcasts_S1x16384_S32x16384))

/-- The weights: the exponentials over their column sums. -/
def wV (lg : FVec Ideal S32x16384 .f32) : FVec Ideal S32x16384 .f32 :=
  divf (expV lg) (broadcastTo S32x16384 (shapeCast S1x16384 (multiReduction .add [0] S16384 (expV lg) 0x00000000#32 Gen.reduces_S32x16384_S16384 (.inl rfl) rfl) Gen.shapeCasts_S16384_S1x16384) Gen.broadcasts_S1x16384_S32x16384)

/-- The aggregated residuals from the weights, the image and the codebook, as a block of one image. -/
def resV (w : FVec Ideal S32x16384 .f32) (img : FVec Ideal S128x16384 .f32) (cw : FVec Ideal S32x128 .f32) : FVec Ideal S1x32x128 .f32 :=
  shapeCast S1x32x128 (subf (matmul dot_S32x16384_S128x16384_S32x128_1_1_0_0_n_n none (truncf .bf16 w Gen.bitsLt_bf16_f32) (truncf .bf16 img Gen.bitsLt_bf16_f32) (constant S32x128 .f32 0x00000000#32))
    (mulf (broadcastTo S32x128 (shapeCast S32x1 (multiReduction .add [1] S32 w 0x00000000#32 Gen.reduces_S32x16384_S32 (.inl rfl) rfl) Gen.shapeCasts_S32_S32x1) Gen.broadcasts_S32x1_S32x128) cw))
    Gen.shapeCasts_S32x128_S1x32x128

/-- The whole body for one slice. -/
def bodyV (cwT : FVec Ideal S128x32 .bf16) (cw : FVec Ideal S32x128 .f32) (sc2 scol : FVec Ideal S32x1 .f32) (xb : FVec Ideal S1x128x16384 .f32) : FVec Ideal S1x32x128 .f32 :=
  resV (wV (logitV cwT sc2 scol xb)) (imgV xb) cw

/-- The second store's payload is the body of its slice. -/
theorem pay1_eq (cwT : FVec Ideal S128x32 .bf16) (cw : FVec Ideal S32x128 .f32) (sc2 scol : FVec Ideal S32x1 .f32) (xb : FVec Ideal S1x128x16384 .f32) :
    Gen.k0_pay1 (F := Ideal) cwT cw sc2 scol xb = bodyV cwT cw sc2 scol xb := rfl

/-- The first store's payload is the body of its slice (the three same-shape casts of the loaded blocks are the identity). -/
theorem pay5_eq (cwT : FVec Ideal S128x32 .bf16) (cw : FVec Ideal S32x128 .f32) (sc2 scol : FVec Ideal S32x1 .f32) (xb : FVec Ideal S1x128x16384 .f32) :
    Gen.k0_pay5 (F := Ideal) cwT cw sc2 scol xb = bodyV cwT cw sc2 scol xb := by
  have e : Gen.k0_pay5 (F := Ideal) cwT cw sc2 scol xb = bodyV (Gen.k0_pay2 cwT) cw (Gen.k0_pay3 sc2) (Gen.k0_pay4 scol) xb := rfl
  rw [e]
  unfold Gen.k0_pay2 Gen.k0_pay3 Gen.k0_pay4
  rw [shapeCast_self, shapeCast_self, shapeCast_self]

/-! ## Each stage at an index -/

section Stages
variable (xb : FVec Ideal S1x128x16384 .f32)

theorem imgV_apply (d : Fin 128) (n : Fin 16384) : imgV xb (ix2 d n) = xb (ix3 (0 : Fin 1) d n) := by
  unfold imgV
  exact shapeCast_1ab_ab_apply xb _ d n

theorem lift_col128 (n : Fin 16384) (d : Fin 128) : Gen.reduces_S128x16384_S16384.lift (ix1 n) d = ix2 d n :=
  funext fun a => Fin.ext (by match a with | ⟨0, _⟩ => rfl | ⟨1, _⟩ => rfl)

theorem lift_col32 (n : Fin 16384) (k : Fin 32) : Gen.reduces_S32x16384_S16384.lift (ix1 n) k = ix2 k n :=
  funext fun a => Fin.ext (by match a with | ⟨0, _⟩ => rfl | ⟨1, _⟩ => rfl)

theorem lift_row (k : Fin 32) (n : Fin 16384) : Gen.reduces_S32x16384_S32.lift (ix1 k) n = ix2 k n :=
  funext fun a => Fin.ext (by match a with | ⟨0, _⟩ => rfl | ⟨1, _⟩ => rfl)

theorem sqV_apply (n : Fin 16384) :
    sqV xb (ix2 (0 : Fin 1) n) = ∑ d : Fin 128, xb (ix3 (0 : Fin 1) d n) * xb (ix3 (0 : Fin 1) d n) := by
  unfold sqV
  refine (shapeCast_a_1a_apply _ _ (0 : Fin 1) n).trans ?_
  refine (Ideal.multiReduction_add_single _ _ _ _ _ (ix1 n)).trans ?_
  refine Finset.sum_congr rfl fun d _ => ?_
  have e : imgV xb (Gen.reduces_S128x16384_S16384.lift (ix1 n) d) = xb (ix3 (0 : Fin 1) d n) :=
    (congrArg (imgV xb) (lift_col128 n d)).trans (imgV_apply xb d n)
  exact congrArg₂ (· * ·) e e

theorem dotV_apply (cwT : FVec Ideal S128x32 .bf16) (k : Fin 32) (n : Fin 16384) :
    dotV cwT xb (ix2 k n) = ∑ d : Fin 128, cwT (ix2 d k) * xb (ix3 (0 : Fin 1) d n) := by
  unfold dotV
  refine (Ideal.matmul_constant_zero_apply dot_S128x32_S128x16384_S32x16384_0_0_1_1_n_n none cwT (truncf .bf16 (imgV xb) Gen.bitsLt_bf16_f32) (ix2 k n)).trans ?_
  rw [← Equiv.sum_comp (contrEquiv1 dot_S128x32_S128x16384_S32x16384_0_0_1_1_n_n 128 rfl rfl).symm]
  refine Finset.sum_congr rfl fun d _ => ?_
  have hk := contrEquiv1_symm_val dot_S128x32_S128x16384_S32x16384_0_0_1_1_n_n 128 rfl rfl d
  have el : dot_S128x32_S128x16384_S32x16384_0_0_1_1_n_n.lhsIdx (ix2 k n) ((contrEquiv1 dot_S128x32_S128x16384_S32x16384_0_0_1_1_n_n 128 rfl rfl).symm d) = ix2 d k := funext fun a => Fin.ext (by
    match a with
    | ⟨0, _⟩ => exact (lhs1_0 _ _).trans hk
    | ⟨1, _⟩ => exact lhs1_1 _ _)
  have er : dot_S128x32_S128x16384_S32x16384_0_0_1_1_n_n.rhsIdx (ix2 k n) ((contrEquiv1 dot_S128x32_S128x16384_S32x16384_0_0_1_1_n_n 128 rfl rfl).symm d) = ix2 d n := funext fun a => Fin.ext (by
    match a with
    | ⟨0, _⟩ => exact (rhs1_0 _ _).trans hk
    | ⟨1, _⟩ => exact rhs1_1 _ _)
  rw [el, er]
  exact congrArg (cwT (ix2 d k) * ·) (imgV_apply xb d n)

theorem logitV_apply (cwT : FVec Ideal S128x32 .bf16) (sc2 scol : FVec Ideal S32x1 .f32) (k : Fin 32) (n : Fin 16384) :
    logitV cwT sc2 scol xb (ix2 k n)
      = (scol (ix2 k (0 : Fin 1)) * (∑ d : Fin 128, xb (ix3 (0 : Fin 1) d n) * xb (ix3 (0 : Fin 1) d n))
          + ∑ d : Fin 128, cwT (ix2 d k) * xb (ix3 (0 : Fin 1) d n)) + sc2 (ix2 k (0 : Fin 1)) := by
  unfold logitV
  show (broadcastTo S32x16384 scol _ (ix2 k n) * broadcastTo S32x16384 (sqV xb) _ (ix2 k n) + dotV cwT xb (ix2 k n))
      + broadcastTo S32x16384 sc2 _ (ix2 k n) = _
  rw [broadcastTo_a1_ab_apply, broadcastTo_1b_ab_apply, sqV_apply, dotV_apply, broadcastTo_a1_ab_apply]

end Stages

section Weights
variable (lg : FVec Ideal S32x16384 .f32) (L : Fin 32 → Fin 16384 → EReal) (hL : ∀ k n, lg (ix2 k n) = L k n)
include hL

theorem maxV_apply (n : Fin 16384) : maxV lg (ix2 (0 : Fin 1) n) = SoftAssign.colMax B L n := by
  unfold maxV SoftAssign.colMax
  refine (shapeCast_a_1a_apply _ _ (0 : Fin 1) n).trans ?_
  refine (Ideal.multiReduction_maximumf_single _ _ _ _ _ (ix1 n)).trans ?_
  refine Finset.fold_congr fun k _ => ?_
  exact (congrArg lg (lift_col32 n k)).trans (hL k n)

theorem expV_apply (k : Fin 32) (n : Fin 16384) : expV lg (ix2 k n) = Ideal.exp (L k n - SoftAssign.colMax B L n) := by
  unfold expV
  simp only [exp, subf, Ideal.exp_def, Ideal.subf_def]
  rw [broadcastTo_1b_ab_apply, maxV_apply lg L hL, hL]

theorem wV_apply (k : Fin 32) (n : Fin 16384) : wV lg (ix2 k n) = SoftAssign.weight B L k n := by
  unfold wV SoftAssign.weight
  simp only [divf, Ideal.divf_def]
  rw [broadcastTo_1b_ab_apply, expV_apply lg L hL]
  refine congrArg (Ideal.div _) ?_
  refine (shapeCast_a_1a_apply _ _ (0 : Fin 1) n).trans ?_
  refine (Ideal.multiReduction_add_single _ _ _ _ _ (ix1 n)).trans ?_
  refine Finset.sum_congr rfl fun k' _ => ?_
  exact (congrArg (expV lg) (lift_col32 n k')).trans (expV_apply lg L hL k' n)

end Weights

/-- The residual stage at an index, from the weights and the image read at theirs. -/
theorem resV_apply (w : FVec Ideal S32x16384 .f32) (W : Fin 32 → Fin 16384 → EReal) (hW : ∀ k n, w (ix2 k n) = W k n)
    (img : FVec Ideal S128x16384 .f32) (x : Fin 128 → Fin 16384 → EReal) (hx : ∀ d n, img (ix2 d n) = x d n)
    (cw : FVec Ideal S32x128 .f32) (u : Fin 1) (k : Fin 32) (d : Fin 128) :
    resV w img cw (ix3 u k d) = (∑ n : Fin 16384, W k n * x d n) - (∑ n : Fin 16384, W k n) * cw (ix2 k d) := by
  unfold resV
  refine (shapeCast_ab_1ab_apply _ _ u k d).trans ?_
  rw [subf_apply, mulf_apply]
  refine congrArg₂ (· - ·) ?_ (congrArg (· * cw (ix2 k d)) ?_)
  · refine (Ideal.matmul_constant_zero_apply dot_S32x16384_S128x16384_S32x128_1_1_0_0_n_n none (truncf .bf16 w Gen.bitsLt_bf16_f32) (truncf .bf16 img Gen.bitsLt_bf16_f32) (ix2 k d)).trans ?_
    rw [← Equiv.sum_comp (contrEquiv1 dot_S32x16384_S128x16384_S32x128_1_1_0_0_n_n 16384 rfl rfl).symm]
    refine Finset.sum_congr rfl fun n _ => ?_
    have hk := contrEquiv1_symm_val dot_S32x16384_S128x16384_S32x128_1_1_0_0_n_n 16384 rfl rfl n
    have el : dot_S32x16384_S128x16384_S32x128_1_1_0_0_n_n.lhsIdx (ix2 k d) ((contrEquiv1 dot_S32x16384_S128x16384_S32x128_1_1_0_0_n_n 16384 rfl rfl).symm n) = ix2 k n := funext fun a => Fin.ext (by
      match a with
      | ⟨0, _⟩ => exact lhs2_0 _ _
      | ⟨1, _⟩ => exact (lhs2_1 _ _).trans hk)
    have er : dot_S32x16384_S128x16384_S32x128_1_1_0_0_n_n.rhsIdx (ix2 k d) ((contrEquiv1 dot_S32x16384_S128x16384_S32x128_1_1_0_0_n_n 16384 rfl rfl).symm n) = ix2 d n := funext fun a => Fin.ext (by
      match a with
      | ⟨0, _⟩ => exact rhs2_0 _ _
      | ⟨1, _⟩ => exact (rhs2_1 _ _).trans hk)
    rw [el, er]
    exact congrArg₂ (· * ·) (hW k n) (hx d n)
  · rw [broadcastTo_a1_ab_apply]
    refine (shapeCast_a_a1_apply _ _ k (0 : Fin 1)).trans ?_
    refine (Ideal.multiReduction_add_single _ _ _ _ _ (ix1 k)).trans ?_
    refine Finset.sum_congr rfl fun n _ => ?_
    exact (congrArg w (lift_row k n)).trans (hW k n)

/-- THE BODY AT AN INDEX: for a slice `xb`, whatever logits `L` its logit stage computes, entry `(0, k, d)` of the body's
    block is the aggregated residual of that image under those logits. -/
theorem bodyV_apply (cwT : FVec Ideal S128x32 .bf16) (cw : FVec Ideal S32x128 .f32) (sc2 scol : FVec Ideal S32x1 .f32)
    (xb : FVec Ideal S1x128x16384 .f32) (L : Fin 32 → Fin 16384 → EReal)
    (hL : ∀ k n, logitV cwT sc2 scol xb (ix2 k n) = L k n) (u : Fin 1) (k : Fin 32) (d : Fin 128) :
    bodyV cwT cw sc2 scol xb (ix3 u k d)
      = SoftAssign.residual B L (fun d n => xb (ix3 (0 : Fin 1) d n)) (fun k d => cw (ix2 k d)) k d := by
  unfold bodyV SoftAssign.residual
  exact resV_apply _ (SoftAssign.weight B L) (wV_apply _ L hL) _ _ (imgV_apply xb) cw u k d

end Cert.KernelIdeal.Body

end
-- ==== Proof.BlockValue.lean ====
/-
  One grid point's output block as a function of its input blocks.

  A grid point handles two images. Its body stores the residuals of the block's first image into the first half of the
  output block and those of the second image into the second half; each store's payload is the one-image body
  (`Body.bodyV`) of the matching slice of the input block, the other four inputs (the rescaled transposed codebook, the
  codebook and the two columns) being read whole. So the block the body leaves is, entry `(bb, k, d)`, the aggregated
  residual of image `bb` of the input block under that image's logits.
-/
import proofs.«132826_j566935683617_2_alg».proof.Proof.Gen.KernelIdeal.Frame
import proofs.«132826_j566935683617_2_alg».proof.Proof.KernelBody
import Idealize.ShloMosaic.Lib.Pipeline.Value
import Idealize.ShloMosaic.Lib.ValueIdx

noncomputable section

namespace Cert.KernelIdeal.Block

open Cert.KernelIdeal Cert.KernelIdeal.Body Cert.SoftAssign Idealize.ShloMosaic Idealize.ShloMosaic.ValueIdx

/-- Image `bb` of a two-image block, as a one-image block. -/
def sliceOf (x0 : FVec Ideal S2x128x16384 .f32) (bb : Fin 2) : FVec Ideal S1x128x16384 .f32 :=
  fun j => x0 (ix3 bb (j 1) (j 2))

theorem hz2 : (![0, 0] : Fin 2 → Nat) = fun _ => 0 := funext fun a => by fin_cases a <;> rfl

/-- The load of the block's first image. -/
theorem ld_first (x0 : FVec Ideal S2x128x16384 .f32) : View.ld (Val := Elt Ideal) (e' := .f32) x0 Gen.r0_3 = sliceOf x0 0 :=
  funext fun j => congrArg x0 (funext fun a => Fin.ext (by
    match a with
    | ⟨0, _⟩ => have h : (j 0).val < 1 := (j 0).isLt; show 0 + 1 * (j 0).val = 0; omega
    | ⟨1, _⟩ => show 0 + 1 * (j 1).val = (j 1).val; omega
    | ⟨2, _⟩ => show 0 + 1 * (j 2).val = (j 2).val; omega))

/-- The load of the block's second image. -/
theorem ld_second (x0 : FVec Ideal S2x128x16384 .f32) : View.ld (Val := Elt Ideal) (e' := .f32) x0 Gen.r0_5 = sliceOf x0 1 :=
  funext fun j => congrArg x0 (funext fun a => Fin.ext (by
    match a with
    | ⟨0, _⟩ => have h : (j 0).val < 1 := (j 0).isLt; show 1 + 1 * (j 0).val = 1; omega
    | ⟨1, _⟩ => show 0 + 1 * (j 1).val = (j 1).val; omega
    | ⟨2, _⟩ => show 0 + 1 * (j 2).val = (j 2).val; omega))

section Pieces
variable (x0 : FVec Ideal S2x128x16384 .f32) (x1 : FVec Ideal S128x32 .bf16) (x2 : FVec Ideal S32x128 .f32) (x3 x4 : FVec Ideal S32x1 .f32)

/-- The second store's payload is the body of the second image. -/
theorem piece_second :
    Gen.k0_pay1 (F := Ideal) (Gen.k0_pay2 (View.ld x1 Gen.r0_0)) (View.ld x2 Gen.r0_1) (Gen.k0_pay3 (View.ld x3 Gen.r0_2)) (Gen.k0_pay4 (View.ld x4 Gen.r0_2)) (View.ld x0 Gen.r0_5)
      = bodyV x1 x2 x3 x4 (sliceOf x0 1) := by
  rw [View.ld_unit_zero (S := S128x32) hz2, View.ld_unit_zero (S := S32x128) hz2, View.ld_unit_zero (S := S32x1) hz2,
    View.ld_unit_zero (S := S32x1) hz2, ld_second, pay1_eq]
  unfold Gen.k0_pay2 Gen.k0_pay3 Gen.k0_pay4
  rw [shapeCast_self, shapeCast_self, shapeCast_self]

/-- The first store's payload is the body of the first image. -/
theorem piece_first :
    Gen.k0_pay5 (F := Ideal) (View.ld x1 Gen.r0_0) (View.ld x2 Gen.r0_1) (View.ld x3 Gen.r0_2) (View.ld x4 Gen.r0_2) (View.ld x0 Gen.r0_3)
      = bodyV x1 x2 x3 x4 (sliceOf x0 0) := by
  rw [View.ld_unit_zero (S := S128x32) hz2, View.ld_unit_zero (S := S32x128) hz2, View.ld_unit_zero (S := S32x1) hz2,
    View.ld_unit_zero (S := S32x1) hz2, ld_first, pay5_eq]

/-- Where the second store's rectangle puts entry `(u, k, d)` of its payload: row 1 of the block. -/
theorem emb_second (u : Fin 1) (k : Fin 32) (d : Fin 128) : Gen.r0_6.emb (ix3 u k d) = ix3 (1 : Fin 2) k d :=
  funext fun a => Fin.ext (by
    match a with
    | ⟨0, _⟩ => have h : u.val < 1 := u.isLt; show 1 + 1 * u.val = 1; omega
    | ⟨1, _⟩ => show 0 + 1 * k.val = k.val; omega
    | ⟨2, _⟩ => show 0 + 1 * d.val = d.val; omega)

/-- Where the first store's rectangle puts entry `(u, k, d)` of its payload: row 0 of the block. -/
theorem emb_first (u : Fin 1) (k : Fin 32) (d : Fin 128) : Gen.r0_4.emb (ix3 u k d) = ix3 (0 : Fin 2) k d :=
  funext fun a => Fin.ext (by
    match a with
    | ⟨0, _⟩ => have h : u.val < 1 := u.isLt; show 0 + 1 * u.val = 0; omega
    | ⟨1, _⟩ => show 0 + 1 * k.val = k.val; omega
    | ⟨2, _⟩ => show 0 + 1 * d.val = d.val; omega)

/-- THE BLOCK THE BODY LEAVES: whatever logits `Lg bb` the logit stage computes of image `bb` of the input block, entry
    `(bb, k, d)` of the output block is the aggregated residual of that image under those logits. -/
theorem out_apply (Lg : Fin 2 → Fin 32 → Fin 16384 → EReal)
    (hL : ∀ (bb : Fin 2) (k : Fin 32) (n : Fin 16384), logitV x1 x3 x4 (sliceOf x0 bb) (ix2 k n) = Lg bb k n)
    (y : S2x32x128.Idx) :
    Gen.out0_5 (F := Ideal) x0 x1 x2 x3 x4 y
      = SoftAssign.residual B (Lg (y 0)) (fun d n => x0 (ix3 (y 0) d n)) (fun k d => x2 (ix2 k d)) (y 1) (y 2) := by
  unfold Gen.out0_5
  refine View.canon_apply_of_pieces (Val := Elt Ideal)
    (fun y : S2x32x128.Idx => SoftAssign.residual B (Lg (y 0)) (fun d n => x0 (ix3 (y 0) d n)) (fun k d => x2 (ix2 k d)) (y 1) (y 2))
    _ ?_ y (Gen.cover0_5 _ _ y)
  intro p hp x
  rcases List.mem_cons.mp hp with rfl | hp
  · obtain ⟨u, k, d, rfl⟩ : ∃ (u : Fin 1) (k : Fin 32) (d : Fin 128), x = ix3 u k d := ⟨x 0, x 1, x 2, eq_ix3 x⟩
    show Gen.k0_pay1 (F := Ideal) _ _ _ _ _ (ix3 u k d) = _
    rw [piece_second, bodyV_apply x1 x2 x3 x4 (sliceOf x0 1) (Lg 1) (hL 1) u k d]
    show _ = (fun y : S2x32x128.Idx => SoftAssign.residual B (Lg (y 0)) (fun d n => x0 (ix3 (y 0) d n)) (fun k d => x2 (ix2 k d)) (y 1) (y 2)) (Gen.r0_6.emb (ix3 u k d))
    rw [emb_second]
    rfl
  · rcases List.mem_singleton.mp hp with rfl
    obtain ⟨u, k, d, rfl⟩ : ∃ (u : Fin 1) (k : Fin 32) (d : Fin 128), x = ix3 u k d := ⟨x 0, x 1, x 2, eq_ix3 x⟩
    show Gen.k0_pay5 (F := Ideal) _ _ _ _ _ (ix3 u k d) = _
    rw [piece_first, bodyV_apply x1 x2 x3 x4 (sliceOf x0 0) (Lg 0) (hL 0) u k d]
    show _ = (fun y : S2x32x128.Idx => SoftAssign.residual B (Lg (y 0)) (fun d n => x0 (ix3 (y 0) d n)) (fun k d => x2 (ix2 k d)) (y 1) (y 2)) (Gen.r0_4.emb (ix3 u k d))
    rw [emb_first]
    rfl

end Pieces

end Cert.KernelIdeal.Block

end
-- ==== Proof.EntryArrays.lean ====
/-
  What the pipeline's input windows hold when the region is entered, read at an index.

  Before the region @main computes, from the three arguments (the images `X`, the codebook `C`, the scales `S`):
  the images reshaped to [32, 128, 16384]; the column `S k` ([32, 1]); the column `S k · (0 + Σ_d C k d · C k d)`; and the
  transposed rescaled codebook `((-2) · S k) · C k d` at `(d, k)` ([128, 32]; its change of float format is the
  identity on the extended reals). These are the arrays windows 0, 4, 3 and 1 stage; window 2 stages the codebook itself.
-/
import proofs.«132826_j566935683617_2_alg».proof.Proof.Gen.KernelIdeal.Frame
import proofs.«132826_j566935683617_2_alg».proof.Proof.KernelBody
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Body Cert.SoftAssign Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-- The three arguments as launched. -/
abbrev argX : FVec Ideal S32x128x128x128 .f32 := m ((c : Thread nD τ).loc main_arg0)
abbrev argC : FVec Ideal S32x128 .f32 := m ((c : Thread nD τ).loc main_arg1)
abbrev argS : FVec Ideal S32 .f32 := m ((c : Thread nD τ).loc main_arg2)

/-- The pattern of `-2.0`, as it stands. -/
abbrev mtwo : EReal := Ideal.ofBits .f32 0xC0000000#32

/-- The images the region finds: the reshape of the first argument. -/
theorem images_eq : (Gen.V m c main_v0 : S32x128x16384.Idx → EReal)
    = shapeCast S32x128x16384 (argX m c) Gen.shapeCasts_S32x128x128x128_S32x128x16384 := by
  dsimp only [Gen.V, Gen.hostOps0]; after_results; try rfl

/-- The column of scales. -/
theorem scol_eq : (Gen.V m c main_v5 : S32x1.Idx → EReal) = shapeCast S32x1 (argS m c) Gen.shapeCasts_S32_S32x1 := by
  dsimp only [Gen.V, Gen.hostOps0]; after_results; try rfl

/-- The column of scaled squared codeword lengths. -/
theorem sc2_eq : (Gen.V m c main_v4 : S32x1.Idx → EReal)
    = shapeCast S32x1 (mulf (argS m c) (Host.reduceAdd (F := Ideal) (mulf (argC m c) (argC m c)) (constant (F := Ideal) S_ .f32 0x00000000#32)
        Gen.reducesTo_S32x128_S32_d1 Gen.h_S_)) Gen.shapeCasts_S32_S32x1 := by
  dsimp only [Gen.V, Gen.hostOps0]; after_results; try rfl

/-- The transposed rescaled codebook. -/
theorem cwT_eq : (Gen.V m c main_v12 : S128x32.Idx → EReal)
    = truncf .bf16 (transpose S128x32 [1, 0] (mulf (broadcastInDim S32x128 ![0, 1] Gen.bcast_S32x1_S32x128_0_1
        (mulf (broadcastInDim S32x1 ![] Gen.bcast_S_S32x1 (constant (F := Ideal) S_ .f32 0xC0000000#32))
          (broadcastInDim S32x1 ![0] Gen.bcast_S32_S32x1_0 (argS m c)))) (argC m c)) Gen.transposes_S32x128_S128x32_1_0) Gen.bitsLt_bf16_f32 := by
  dsimp only [Gen.V, Gen.hostOps0]; after_results; try rfl

/-! ## At an index -/

theorem scol_apply (k : Fin 32) (u : Fin 1) : Gen.V m c main_v5 (ix2 k u) = argS m c (ix1 k) :=
  (congrFun (scol_eq m c) (ix2 k u)).trans (shapeCast_a_a1_apply _ _ k u)

/-- The codebook's row sum drops axis 1. -/
theorem reduces_code : S32x128.Reduces [1] S32 := by decide

/-- A change of float format reads the entry unchanged on the extended reals. -/
theorem truncf_apply {s : Shape} {φ ψ : FTy} (v : FVec Ideal s φ) (h : ψ.bits < φ.bits) (i : s.Idx) : truncf ψ v h i = v i := rfl

theorem lift_code (k : Fin 32) (d : Fin 128) : reduces_code.lift (ix1 k) d = ix2 k d :=
  funext fun a => Fin.ext (by match a with | ⟨0, _⟩ => rfl | ⟨1, _⟩ => rfl)

theorem sc2_apply (k : Fin 32) (u : Fin 1) :
    Gen.V m c main_v4 (ix2 k u) = argS m c (ix1 k) * codeSq (codes (argC m c)) k := by
  refine (congrFun (sc2_eq m c) (ix2 k u)).trans ?_
  refine (shapeCast_a_a1_apply _ _ k u).trans ?_
  rw [mulf_apply]
  refine congrArg (argS m c (ix1 k) * ·) ?_
  simp only [Host.reduceAdd, Ideal.hostReduceAdd_def]
  rw [Ideal.hostReduceAdd_single Gen.reducesTo_S32x128_S32_d1 reduces_code]
  show Ideal.ofBits .f32 0x00000000#32 + _ = _
  rw [Ideal.ofBits_zero_f32, zero_add]
  unfold codeSq codes
  refine Finset.sum_congr rfl fun d _ => ?_
  have e : argC m c (reduces_code.lift (ix1 k) d) = argC m c (ix2 k d) := congrArg (argC m c) (lift_code k d)
  exact congrArg₂ (· * ·) e e

theorem cwT_apply (d : Fin 128) (k : Fin 32) :
    Gen.V m c main_v12 (ix2 d k) = (mtwo * argS m c (ix1 k)) * argC m c (ix2 k d) := by
  refine (congrFun (cwT_eq m c) (ix2 d k)).trans ?_
  refine (truncf_apply (ψ := .bf16) _ Gen.bitsLt_bf16_f32 (ix2 d k)).trans ?_
  refine (transpose_ix2_apply _ _ d k).trans ?_
  rw [mulf_apply]
  refine congrArg (· * argC m c (ix2 k d)) ?_
  refine (broadcastInDim_apply _ _ _ (ix2 k d) (ix2 k (0 : Fin 1)) (fun a => match a with
    | ⟨0, _⟩ => by show k.val = if (32 : Nat) = 1 then 0 else k.val; rw [if_neg (by decide)]
    | ⟨1, _⟩ => by show (0 : Nat) = if (1 : Nat) = 1 then 0 else d.val; rw [if_pos rfl])).trans ?_
  rw [mulf_apply]
  refine congrArg₂ (· * ·) ?_ ?_
  · exact broadcastInDim_apply _ _ _ (ix2 k (0 : Fin 1)) ix0 (fun a => a.elim0)
  · exact broadcastInDim_apply _ _ _ (ix2 k (0 : Fin 1)) (ix1 k) (fun a => match a with
      | ⟨0, _⟩ => by show k.val = if (32 : Nat) = 1 then 0 else k.val; rw [if_neg (by decide)])

end Cert.KernelIdeal.Entry

end
-- ==== Proof.RunValue.lean ====
/-
  The kernel's result array after the run is the aggregated residual with the distributed logit.

  Grid point `t` handles images `2t` and `2t + 1`: its input block of window 0 is rows `2t, 2t + 1` of the reshaped images,
  the other four input windows' blocks are their whole arrays, and its output block is rows `2t, 2t + 1` of the result.
  With what the region finds in those arrays (the region-entry module) and what the body leaves in the output block (the
  block module), the block written back at `t` is block `t` of ONE whole-array function, `encodeOut`; the sixteen
  blocks tile the result's 32 rows, so after the run the result array is that function of the arguments.
-/
import proofs.«132826_j566935683617_2_alg».proof.Proof.Gen.KernelIdeal.Value
import proofs.«132826_j566935683617_2_alg».proof.Proof.BlockValue
import proofs.«132826_j566935683617_2_alg».proof.Proof.EntryArrays

noncomputable section

namespace Cert.KernelIdeal.RunValue

open Cert.KernelIdeal Cert.KernelIdeal.Gen Cert.KernelIdeal.Body Cert.KernelIdeal.Block Cert.KernelIdeal.Entry Cert.SoftAssign
open Idealize.ShloMosaic Idealize.ShloMosaic.ValueIdx Idealize.ShloMosaic.TcCoe Idealize.SL.Sem
open Idealize.ShloMosaic.Pipeline (Dat)

/-! ## One block, from what its input blocks hold -/

/-- If the five input blocks hold, entry by entry, the rescaled transposed codebook `(mt · S k) · C k d`, the codebook, the
    column `S k · ‖C k‖²` and the column `S k`, the output block's entry `(bb, k, d)` is the aggregated residual of image
    `bb` of the first block under the distributed logit. -/
theorem block_eq (x0 : FVec Ideal S2x128x16384 .f32) (x1 : FVec Ideal S128x32 .bf16) (x2 : FVec Ideal S32x128 .f32)
    (x3 x4 : FVec Ideal S32x1 .f32) (C : SC.Idx → EReal) (S : SS.Idx → EReal) (mt : EReal)
    (h1 : ∀ (d : Fin 128) (k : Fin 32), x1 (ix2 d k) = (mt * S (ix1 k)) * C (ix2 k d))
    (h2 : ∀ (k : Fin 32) (d : Fin 128), x2 (ix2 k d) = C (ix2 k d))
    (h3 : ∀ k : Fin 32, x3 (ix2 k (0 : Fin 1)) = S (ix1 k) * codeSq (codes C) k)
    (h4 : ∀ k : Fin 32, x4 (ix2 k (0 : Fin 1)) = S (ix1 k))
    (y : S2x32x128.Idx) :
    Gen.out0_5 (F := Ideal) x0 x1 x2 x3 x4 y
      = SoftAssign.residual B (logitOut mt (fun d n => x0 (ix3 (y 0) d n)) (codes C) (scales S))
          (fun d n => x0 (ix3 (y 0) d n)) (codes C) (y 1) (y 2) := by
  have hL : ∀ (bb : Fin 2) (k : Fin 32) (n : Fin 16384),
      logitV x1 x3 x4 (sliceOf x0 bb) (ix2 k n) = logitOut mt (fun d n => x0 (ix3 bb d n)) (codes C) (scales S) k n := by
    intro bb k n
    rw [logitV_apply, h4, h3]
    simp only [h1]
    rfl
  have hc : (fun (k : Fin 32) (d : Fin 128) => x2 (ix2 k d)) = codes C := funext fun k => funext fun d => h2 k d
  rw [out_apply x0 x1 x2 x3 x4 (fun bb => logitOut mt (fun d n => x0 (ix3 bb d n)) (codes C) (scales S)) hL y, hc]

/-! ## The grid -/

section Run
variable (m : (ℓ : Loc nD τ sig) → Buf (Elt Ideal) ℓ) (ρ : Dev nD → PrngReg)

/-- The printed index maps, decided over the sixteen points: windows 0 and 5 move with the point along axis 0, the other
    windows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ t.val < 16 :=
  (by decide +kernel : ∀ t : Fin grid0.N, _)

/-- The image a point's block row `bb` is: `2t + bb`. -/
def imageOf (t : Fin cfg0.N) (bb : Fin 2) : Fin 32 :=
  ⟨t.val * 2 + bb.val, by obtain ⟨-, -, -, -, -, -, -, -, -, -, -, -, -, -, ht⟩ := idx_facts t; have := bb.isLt; omega⟩

/-- Window 0's block at `t`: rows `2t, 2t + 1` of the reshaped images. -/
theorem blk0 (c : Dev nD) (t : Fin cfg0.N) (bb : Fin 2) (d : Fin 128) (n : Fin 16384) :
    iblk m c 0 t (ix3 bb d n) = V m c main_v0 (ix3 (imageOf t bb) d n) := by
  obtain ⟨e0, e1, e2, -⟩ := idx_facts t
  show V m c main_v0 (((cfg0.win 0).blk t).view.emb (ix3 bb d n)) = V m c main_v0 (ix3 (imageOf t bb) d n)
  refine congrArg _ (funext fun a => Fin.ext ?_)
  match a with
  | ⟨0, _⟩ => show win0_0.index t (0 : Fin 3) * 2 + 1 * bb.val = t.val * 2 + bb.val; omega
  | ⟨1, _⟩ => show win0_0.index t (1 : Fin 3) * 128 + 1 * d.val = d.val; omega
  | ⟨2, _⟩ => show win0_0.index t (2 : Fin 3) * 16384 + 1 * n.val = n.val; omega

/-- Window 1's block is the whole transposed rescaled codebook. -/
theorem blk1 (c : Dev nD) (t : Fin cfg0.N) (d : Fin 128) (k : Fin 32) : iblk m c 1 t (ix2 d k) = V m c main_v12 (ix2 d k) := by
  obtain ⟨-, -, -, e0, e1, -⟩ := idx_facts t
  show V m c main_v12 (((cfg0.win 1).blk t).view.emb (ix2 d k)) = V m c main_v12 (ix2 d k)
  refine congrArg _ (funext fun a => Fin.ext ?_)
  match a with
  | ⟨0, _⟩ => show win0_1.index t (0 : Fin 2) * 128 + 1 * d.val = d.val; omega
  | ⟨1, _⟩ => show win0_1.index t (1 : Fin 2) * 32 + 1 * k.val = k.val; omega

/-- Window 2's block is the whole codebook. -/
theorem blk2 (c : Dev nD) (t : Fin cfg0.N) (k : Fin 32) (d : Fin 128) : iblk m c 2 t (ix2 k d) = V m c main_arg1 (ix2 k d) := by
  obtain ⟨-, -, -, -, -, e0, e1, -⟩ := idx_facts t
  show V m c main_arg1 (((cfg0.win 2).blk t).view.emb (ix2 k d)) = V m c main_arg1 (ix2 k d)
  refine congrArg _ (funext fun a => Fin.ext ?_)
  match a with
  | ⟨0, _⟩ => show win0_2.index t (0 : Fin 2) * 32 + 1 * k.val = k.val; omega
  | ⟨1, _⟩ => show win0_2.index t (1 : Fin 2) * 128 + 1 * d.val = d.val; omega

/-- Window 3's block is the whole column of scaled squared codeword lengths. -/
theorem blk3 (c : Dev nD) (t : Fin cfg0.N) (k : Fin 32) (u : Fin 1) : iblk m c 3 t (ix2 k u) = V m c main_v4 (ix2 k u) := by
  obtain ⟨-, -, -, -, -, -, -, e0, e1, -⟩ := idx_facts t
  show V m c main_v4 (((cfg0.win 3).blk t).view.emb (ix2 k u)) = V m c main_v4 (ix2 k u)
  refine congrArg _ (funext fun a => Fin.ext ?_)
  match a with
  | ⟨0, _⟩ => show win0_3.index t (0 : Fin 2) * 32 + 1 * k.val = k.val; omega
  | ⟨1, _⟩ => show win0_3.index t (1 : Fin 2) * 1 + 1 * u.val = u.val; omega

/-- Window 4's block is the whole column of scales. -/
theorem blk4 (c : Dev nD) (t : Fin cfg0.N) (k : Fin 32) (u : Fin 1) : iblk m c 4 t (ix2 k u) = V m c main_v5 (ix2 k u) := by
  obtain ⟨-, -, -, -, -, -, -, -, -, e0, e1, -⟩ := idx_facts t
  show V m c main_v5 (((cfg0.win 4).blk t).view.emb (ix2 k u)) = V m c main_v5 (ix2 k u)
  refine congrArg _ (funext fun a => Fin.ext ?_)
  match a with
  | ⟨0, _⟩ => show win0_4.index t (0 : Fin 2) * 32 + 1 * k.val = k.val; omega
  | ⟨1, _⟩ => show win0_4.index t (1 : Fin 2) * 1 + 1 * u.val = u.val; omega

/-- The whole-array function the kernel computes, of the arrays the region finds and the arguments. -/
abbrev result (c : Dev nD) : SE.Idx → EReal :=
  encodeOut mtwo B (V m c main_v0 : SX.Idx → EReal) (argC m c) (argS m c)

/-- WHAT POINT `t` WRITES BACK is block `t` of the whole-array function. -/
theorem flushed_eq (c : Dev nD) (t : Fin cfg0.N) :
    (dats m 0 c).flushed 5 t = ((cfg0.win 5).blk t).view.read (Elt Ideal) (result m c) := by
  rw [Value.flushed5]
  funext y
  show out0_5 (F := Ideal) (iblk m c 0 t) (iblk m c 1 t) (iblk m c 2 t) (iblk m c 3 t) (iblk m c 4 t) y
    = result m c (((cfg0.win 5).blk t).view.emb y)
  obtain ⟨-, -, -, -, -, -, -, -, -, -, -, e0, e1, e2, ht⟩ := idx_facts t
  have hy0 : (y 0).val < 2 := (y 0).isLt
  have ei : ((cfg0.win 5).blk t).view.emb y = ix3 (imageOf t (y 0)) (y 1) (y 2) := funext fun a => Fin.ext (by
    match a with
    | ⟨0, _⟩ => show win0_5.index t (0 : Fin 3) * 2 + 1 * (y 0).val = t.val * 2 + (y 0).val; omega
    | ⟨1, _⟩ => show win0_5.index t (1 : Fin 3) * 32 + 1 * (y 1).val = (y 1).val; omega
    | ⟨2, _⟩ => show win0_5.index t (2 : Fin 3) * 128 + 1 * (y 2).val = (y 2).val; omega)
  rw [ei]
  refine (block_eq (iblk m c 0 t) (iblk m c 1 t) (iblk m c 2 t) (iblk m c 3 t) (iblk m c 4 t) (argC m c) (argS m c) mtwo
    (fun d k => (blk1 m c t d k).trans (cwT_apply m c d k))
    (fun k d => (blk2 m c t k d).trans (congrFun (V_main_arg1 m c) (ix2 k d)))
    (fun k => (blk3 m c t k 0).trans (sc2_apply m c k 0))
    (fun k => (blk4 m c t k 0).trans (scol_apply m c k 0)) y).trans ?_
  have hx : (fun (d : Fin 128) (n : Fin 16384) => iblk m c 0 t (ix3 (y 0) d n)) = image (V m c main_v0 : SX.Idx → EReal) (imageOf t (y 0)) :=
    funext fun d => funext fun n => blk0 m c t (y 0) d n
  rw [hx]
  rfl

/-- An index of the result is in point `t`'s block iff each coordinate is in the block's range on its axis. -/
theorem mem_blk (t : Fin cfg0.N) (i : S32x32x128.Idx) :
    i ∈ ((cfg0.win 5).blk t).view.set ↔ ∀ a : Fin 3, win0_5.index t a * S2x32x128.size a ≤ (i a).val ∧ (i a).val < win0_5.index t a * S2x32x128.size a + S2x32x128.size a := by
  show i ∈ ((View.whole main_v13).slice (win0_5.rect t)).set ↔ _
  rw [View.set_slice_whole, Rect.mem_set_unit]
  exact Iff.rfl

/-- The sixteen blocks tile the result: row `r` is in the block of point `r / 2`. -/
theorem cover (i : S32x32x128.Idx) : ∃ t : Fin cfg0.N, (cfg0.win 5).flush t = true ∧ i ∈ ((cfg0.win 5).blk t).view.set := by
  have hi0 : (i 0).val < 32 := (i 0).isLt
  have hi1 : (i 1).val < 32 := (i 1).isLt
  have hi2 : (i 2).val < 128 := (i 2).isLt
  have hN : grid0.N = 16 := N_0
  have ht : (i 0).val / 2 < cfg0.N := by show (i 0).val / 2 < grid0.N; omega
  refine ⟨⟨(i 0).val / 2, ht⟩, flush0_5 _, ?_⟩
  rw [mem_blk]
  obtain ⟨-, -, -, -, -, -, -, -, -, -, -, e0, e1, e2, -⟩ := idx_facts ⟨(i 0).val / 2, ht⟩
  have e0' : win0_5.index ⟨(i 0).val / 2, ht⟩ (0 : Fin 3) = (i 0).val / 2 := e0
  intro a
  match a with
  | ⟨0, _⟩ => show win0_5.index ⟨(i 0).val / 2, ht⟩ (0 : Fin 3) * 2 ≤ (i 0).val ∧ (i 0).val < win0_5.index ⟨(i 0).val / 2, ht⟩ (0 : Fin 3) * 2 + 2; omega
  | ⟨1, _⟩ => show win0_5.index ⟨(i 0).val / 2, ht⟩ (1 : Fin 3) * 32 ≤ (i 1).val ∧ (i 1).val < win0_5.index ⟨(i 0).val / 2, ht⟩ (1 : Fin 3) * 32 + 32; omega
  | ⟨2, _⟩ => show win0_5.index ⟨(i 0).val / 2, ht⟩ (2 : Fin 3) * 128 ≤ (i 2).val ∧ (i 2).val < win0_5.index ⟨(i 0).val / 2, ht⟩ (2 : Fin 3) * 128 + 128; omega

/-- THE RESULT ARRAY after the run. -/
theorem final (c : Dev nD) : (dats m 0 c).arrAt 5 cfg0.N = result m c :=
  (dats m 0 c).arrAt_eq_of_cover 5 (result m c) (fun t _ => flushed_eq m c t) cover

/-- The kernel's run, with its result array named as the whole-array function and the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Run

end Cert.KernelIdeal.RunValue

end
-- ==== Proof.lean ====
/-
  The certificate of a soft-assignment encoding kernel against its reference.

  Both programs take a batch of 32 images `X` ([32, 128, 128, 128], read as 128 features by 16384 positions), a codebook
  `C` of 32 codewords ([32, 128]) and a scale per codeword `S` ([32]). Each position `n` of an image is softly assigned to
  the codewords by the softmax, over the codewords `k`, of the logits `S k · ‖x_n - c_k‖²` (the squared distance through
  the expanded quadratic `‖x_n‖² - 2 x_n·c_k + ‖c_k‖²`), and the result `E b k d = Σ_n w k n · x d n - (Σ_n w k n) · c_k d`
  aggregates the residuals ([32, 32, 128]).
  The reference computes this with the scale applied to the whole quadratic. The kernel handles two images per grid point
  (sixteen points); it takes the scale inside: outside the grid @main prepares the columns `S k` and `S k · ‖c_k‖²` and the
  transposed codebook rescaled by `-2 · S k`, and the body forms `S k · ‖x_n‖² + Σ_d ((-2 · S k) · c_k d) · x d n + S k · ‖c_k‖²`.
  On the extended reals that is the reference's logit exactly where the product distributes over the sum, which it does
  when every entry is a real number: the precondition (every input finite) is used for this and for nothing else. After
  the logit the two programs apply the same operations in the same order (column maximum, exponential, column sum,
  quotient, the contraction over the positions, the row sum, the product with the codebook, the difference), and changes of
  float format are the identity, so the results agree entry by entry (`algebraic`).
  The frames are the generated ones (the reference's is its generated run with the result dropped); the idealization
  rewrote nothing, so `preserves` is `True`.
-/
import proofs.«132826_j566935683617_2_alg».proof.Defs
import proofs.«132826_j566935683617_2_alg».proof.Proof.Gen.Kernel
import proofs.«132826_j566935683617_2_alg».proof.Proof.Gen.Kernel.Skeleton
import proofs.«132826_j566935683617_2_alg».proof.Proof.Gen.Kernel.Launch
import proofs.«132826_j566935683617_2_alg».proof.Proof.Gen.Kernel.Points
import proofs.«132826_j566935683617_2_alg».proof.Proof.Gen.Kernel.Frame
import proofs.«132826_j566935683617_2_alg».proof.Proof.Gen.KernelIdeal
import proofs.«132826_j566935683617_2_alg».proof.Proof.Gen.KernelIdeal.Skeleton
import proofs.«132826_j566935683617_2_alg».proof.Proof.Gen.KernelIdeal.Launch
import proofs.«132826_j566935683617_2_alg».proof.Proof.Gen.KernelIdeal.Points
import proofs.«132826_j566935683617_2_alg».proof.Proof.Gen.KernelIdeal.Frame
import proofs.«132826_j566935683617_2_alg».proof.Proof.Gen.ReferenceIdeal
import proofs.«132826_j566935683617_2_alg».proof.Proof.Gen.KernelIdeal.Value
import proofs.«132826_j566935683617_2_alg».proof.Proof.Gen.ReferenceIdeal.Run
import proofs.«132826_j566935683617_2_alg».proof.Proof.Gen.ReferenceIdeal.Read
import proofs.«132826_j566935683617_2_alg».proof.Proof.Gen.Pre_finite_inputs
import proofs.«132826_j566935683617_2_alg».proof.Proof.FiniteInputs
import proofs.«132826_j566935683617_2_alg».proof.Proof.RefValue
import proofs.«132826_j566935683617_2_alg».proof.Proof.RunValue
import Idealize.ShloMosaic.Adequacy
import Idealize.ShloMosaic.Init

noncomputable section

namespace Cert.Proof

open Idealize.ShloMosaic Idealize.ShloMosaic.TcCoe Idealize.SL.Sem Cert.SoftAssign

/-! ## The kernel's result is the reference's function of the arguments -/

/-- The common result: the aggregated residual with the undistributed logit, of the reshaped images, the codebook and the
    scales, with the patterns of `2.0` and `-∞` as they stand. -/
abbrev target (X : FVec Ideal Cert.KernelIdeal.S32x128x128x128 .f32) (C : FVec Ideal Cert.KernelIdeal.S32x128 .f32)
    (S : FVec Ideal Cert.KernelIdeal.S32 .f32) : SE.Idx → EReal :=
  encodeIn (Ideal.ofBits .f32 0x40000000#32) (Ideal.ofBits .f32 0xFF800000#32)
    (shapeCast Cert.KernelIdeal.S32x128x16384 X Cert.KernelIdeal.Gen.shapeCasts_S32x128x128x128_S32x128x16384) C S

/-- Under the precondition the kernel's whole-array function (distributed logit, the pattern of `-2.0`) is the common
    result (undistributed logit, the pattern of `2.0`): every entry of the three arguments is real, so the two spellings of
    the logit agree. -/
theorem result_eq_target (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.RunValue.result m c
      = target (Cert.KernelIdeal.Entry.argX m c) (Cert.KernelIdeal.Entry.argC m c) (Cert.KernelIdeal.Entry.argS m c) := by
  obtain ⟨hX, hC, hS⟩ := Cert.FiniteInputs.real_of_pre _ _ _ (hpre c)
  unfold Cert.KernelIdeal.RunValue.result target
  rw [Cert.KernelIdeal.Entry.images_eq]
  show encodeOut (Ideal.ofBits .f32 0xC0000000#32) _ _ _ _ = _
  rw [ofBits_neg_two, ofBits_two]
  exact encodeOut_eq_encodeIn _ _ _ _ (fun i => hX _) hC hS

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the common function of the arguments. -/
theorem algebraic : Cert.algebraic_KernelIdeal_ReferenceIdeal := by
  intro m ρ m' ρ' hpre hagree
  refine ⟨_, (θ_run Cert.KernelIdeal.defs _ _).mono (fun r h c => ⟨(h c).1.trans (result_eq_target m hpre c), (h c).2⟩)
    (Cert.KernelIdeal.RunValue.run m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v36_eq, Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
